-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128x128 : Shape := ⟨4, ![4, 64, 128, 128]⟩
abbrev S4x1600x128x128 : Shape := ⟨4, ![4, 1600, 128, 128]⟩
abbrev S_ : Shape := ⟨0, ![]⟩

class Facts : Prop where
  bcast_S_S4x64x128x128 : S_.BroadcastsInDim S4x64x128x128 (![] : Fin 0 → Fin S4x64x128x128.rank)
  reducesTo_S4x64x128x128_S_d0_1_2_3 : S4x64x128x128.ReducesTo [0, 1, 2, 3] S_
  h_S_ : 0 < S_.numel
  bcast_S_S4x1600x128x128 : S_.BroadcastsInDim S4x1600x128x128 (![] : Fin 0 → Fin S4x1600x128x128.rank)
  reducesTo_S4x1600x128x128_S_d0_1_2_3 : S4x1600x128x128.ReducesTo [0, 1, 2, 3] S_

variable [Facts]

def fn {F : FTy → Type} [FloatOps F] (main_arg0 : FVec F S4x64x128x128 .f32) (main_arg1 : FVec F S4x1600x128x128 .f32) : IVec S_ 1 :=
  let main_v0 : FVec F S4x64x128x128 .f32 := Host.absf main_arg0
  let main_cst : FVec F S_ .f32 := constant S_ .f32 0x7F800000#32
  let main_v1 : FVec F S4x64x128x128 .f32 := broadcastInDim S4x64x128x128 ![] bcast_S_S4x64x128x128 main_cst
  let main_v2 : IVec S4x64x128x128 1 := cmpf .olt main_v0 main_v1
  let main_c : IVec S_ 1 := constantI S_ 1 1#1
  let main_v3 : IVec S_ 1 := (fun x v => Host.reduce IntOp.andi x v reducesTo_S4x64x128x128_S_d0_1_2_3 h_S_) main_v2 main_c
  let main_v4 : FVec F S4x1600x128x128 .f32 := Host.absf main_arg1
  let main_cst_0 : FVec F S_ .f32 := constant S_ .f32 0x7F800000#32
  let main_v5 : FVec F S4x1600x128x128 .f32 := broadcastInDim S4x1600x128x128 ![] bcast_S_S4x1600x128x128 main_cst_0
  let main_v6 : IVec S4x1600x128x128 1 := cmpf .olt main_v4 main_v5
  let main_c_1 : IVec S_ 1 := constantI S_ 1 1#1
  let main_v7 : IVec S_ 1 := (fun x v => Host.reduce IntOp.andi x v reducesTo_S4x1600x128x128_S_d0_1_2_3 h_S_) main_v6 main_c_1
  let main_v8 : IVec S_ 1 := andi main_v3 main_v7
  main_v8
-- ==== Kernel.lean ====
abbrev S4x64x128x128 : Shape := ⟨4, ![4, 64, 128, 128]⟩
abbrev S4x1600x128x128 : Shape := ⟨4, ![4, 1600, 128, 128]⟩
abbrev S_ : Shape := ⟨0, ![]⟩
abbrev S4x64x132x132 : Shape := ⟨4, ![4, 64, 132, 132]⟩
abbrev S1x64x132x132 : Shape := ⟨4, ![1, 64, 132, 132]⟩
abbrev S1x1600x16x128 : Shape := ⟨4, ![1, 1600, 16, 128]⟩
abbrev S1x64x16x128 : Shape := ⟨4, ![1, 64, 16, 128]⟩
abbrev S64x16x128 : Shape := ⟨3, ![64, 16, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x64x128x128, .f32⟩
  | .hbm, ⟨1, _⟩ => ⟨S4x1600x128x128, .f32⟩
  | .hbm, ⟨2, _⟩ => ⟨S_, .i32⟩
  | .hbm, ⟨3, _⟩ => ⟨S_, .f32⟩
  | .hbm, ⟨4, _⟩ => ⟨S4x64x132x132, .f32⟩
  | .hbm, ⟨5, _⟩ => ⟨S4x64x128x128, .f32⟩
  | .local _ .vmem, ⟨0, _⟩ => ⟨S1x64x132x132, .f32⟩
  | .local _ .vmem, ⟨1, _⟩ => ⟨S1x64x132x132, .f32⟩
  | .local _ .vmem, ⟨2, _⟩ => ⟨S1x1600x16x128, .f32⟩
  | .local _ .vmem, ⟨3, _⟩ => ⟨S1x1600x16x128, .f32⟩
  | .local _ .vmem, ⟨4, _⟩ => ⟨S1x64x16x128, .f32⟩
  | .local _ .vmem, ⟨5, _⟩ => ⟨S1x64x16x128, .f32⟩
  | _, _ => ⟨S4x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_off1 (i : grid0.Coords) (c0_i32 : BitVec 32) : Fin 4 → Nat :=
  let c0 : Index := 0#32
  let c0_0 : Index := 0#32
  let arg1 : BitVec 32 := BitVec.ofNat 32 (i 1).val
  let c16_i32 : BitVec 32 := 16#32
  let v0 : BitVec 32 := Scalar.muli arg1 c16_i32
  let v2 : BitVec 32 := Scalar.addi v0 c0_i32
  let v3 : Index := Scalar.indexCast v2
  let c0_1 : Index := 0#32
  ![0, 0, v3.toNat, 0]
def k0_off2 (i : grid0.Coords) (c0_i32_6 : BitVec 32) : Fin 4 → Nat :=
  let c0_7 : Index := 0#32
  let c0_8 : Index := 0#32
  let arg1 : BitVec 32 := BitVec.ofNat 32 (i 1).val
  let c16_i32 : BitVec 32 := 16#32
  let v0 : BitVec 32 := Scalar.muli arg1 c16_i32
  let v10 : BitVec 32 := Scalar.addi v0 c0_i32_6
  let v11 : Index := Scalar.indexCast v10
  let c1 : Index := 1#32
  ![0, 0, v11.toNat, 1]
def k0_off3 (i : grid0.Coords) (c0_i32_12 : BitVec 32) : Fin 4 → Nat :=
  let c0_13 : Index := 0#32
  let c0_14 : Index := 0#32
  let arg1 : BitVec 32 := BitVec.ofNat 32 (i 1).val
  let c16_i32 : BitVec 32 := 16#32
  let v0 : BitVec 32 := Scalar.muli arg1 c16_i32
  let v18 : BitVec 32 := Scalar.addi v0 c0_i32_12
  let v19 : Index := Scalar.indexCast v18
  let c2 : Index := 2#32
  ![0, 0, v19.toNat, 2]
def k0_off4 (i : grid0.Coords) (c0_i32_18 : BitVec 32) : Fin 4 → Nat :=
  let c0_19 : Index := 0#32
  let c0_20 : Index := 0#32
  let arg1 : BitVec 32 := BitVec.ofNat 32 (i 1).val
  let c16_i32 : BitVec 32 := 16#32
  let v0 : BitVec 32 := Scalar.muli arg1 c16_i32
  let v26 : BitVec 32 := Scalar.addi v0 c0_i32_18
  let v27 : Index := Scalar.indexCast v26
  let c3 : Index := 3#32
  ![0, 0, v27.toNat, 3]
def k0_off5 (i : grid0.Coords) (c0_i32_24 : BitVec 32) : Fin 4 → Nat :=
  let c0_25 : Index := 0#32
  let c0_26 : Index := 0#32
  let arg1 : BitVec 32 := BitVec.ofNat 32 (i 1).val
  let c16_i32 : BitVec 32 := 16#32
  let v0 : BitVec 32 := Scalar.muli arg1 c16_i32
  let v34 : BitVec 32 := Scalar.addi v0 c0_i32_24
  let v35 : Index := Scalar.indexCast v34
  let c4 : Index := 4#32
  ![0, 0, v35.toNat, 4]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x64x132x132 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1600x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x64x128x128_S4x64x132x132_000_000_220_220 : S4x64x128x128.Pads (![0, 0, 2, 2] : Fin 4 → Nat) ![0, 0, 2, 2] ![0, 0, 0, 0] S4x64x132x132
  h_S_ : 0 < S_.numel
  h_S1x64x16x128 : 0 < S1x64x16x128.numel
  shapeCasts_S1x64x16x128_S64x16x128 : S1x64x16x128.ShapeCasts S64x16x128
  inb_S1x1600x16x128_S1x64x16x128_0_0_0_0 : ∀ a, (![0, 0, 0, 0] : Fin 4 → Nat) a + S1x64x16x128.size a ≤ S1x1600x16x128.size a
  inb_S1x1600x16x128_S1x64x16x128_0_64_0_0 : ∀ a, (![0, 64, 0, 0] : Fin 4 → Nat) a + S1x64x16x128.size a ≤ S1x1600x16x128.size a
  inb_S1x1600x16x128_S1x64x16x128_0_128_0_0 : ∀ a, (![0, 128, 0, 0] : Fin 4 → Nat) a + S1x64x16x128.size a ≤ S1x1600x16x128.size a
  inb_S1x1600x16x128_S1x64x16x128_0_192_0_0 : ∀ a, (![0, 192, 0, 0] : Fin 4 → Nat) a + S1x64x16x128.size a ≤ S1x1600x16x128.size a
  inb_S1x1600x16x128_S1x64x16x128_0_256_0_0 : ∀ a, (![0, 256, 0, 0] : Fin 4 → Nat) a + S1x64x16x128.size a ≤ S1x1600x16x128.size a
  inb_S1x1600x16x128_S1x64x16x128_0_320_0_0 : ∀ a, (![0, 320, 0, 0] : Fin 4 → Nat) a + S1x64x16x128.size a ≤ S1x1600x16x128.size a
  inb_S1x1600x16x128_S1x64x16x128_0_384_0_0 : ∀ a, (![0, 384, 0, 0] : Fin 4 → Nat) a + S1x64x16x128.size a ≤ S1x1600x16x128.size a
  inb_S1x1600x16x128_S1x64x16x128_0_448_0_0 : ∀ a, (![0, 448, 0, 0] : Fin 4 → Nat) a + S1x64x16x128.size a ≤ S1x1600x16x128.size a
  inb_S1x1600x16x128_S1x64x16x128_0_512_0_0 : ∀ a, (![0, 512, 0, 0] : Fin 4 → Nat) a + S1x64x16x128.size a ≤ S1x1600x16x128.size a
  inb_S1x1600x16x128_S1x64x16x128_0_576_0_0 : ∀ a, (![0, 576, 0, 0] : Fin 4 → Nat) a + S1x64x16x128.size a ≤ S1x1600x16x128.size a
  inb_S1x1600x16x128_S1x64x16x128_0_640_0_0 : ∀ a, (![0, 640, 0, 0] : Fin 4 → Nat) a + S1x64x16x128.size a ≤ S1x1600x16x128.size a
  inb_S1x1600x16x128_S1x64x16x128_0_704_0_0 : ∀ a, (![0, 704, 0, 0] : Fin 4 → Nat) a + S1x64x16x128.size a ≤ S1x1600x16x128.size a
  inb_S1x1600x16x128_S1x64x16x128_0_768_0_0 : ∀ a, (![0, 768, 0, 0] : Fin 4 → Nat) a + S1x64x16x128.size a ≤ S1x1600x16x128.size a
  inb_S1x1600x16x128_S1x64x16x128_0_832_0_0 : ∀ a, (![0, 832, 0, 0] : Fin 4 → Nat) a + S1x64x16x128.size a ≤ S1x1600x16x128.size a
  inb_S1x1600x16x128_S1x64x16x128_0_896_0_0 : ∀ a, (![0, 896, 0, 0] : Fin 4 → Nat) a + S1x64x16x128.size a ≤ S1x1600x16x128.size a
  inb_S1x1600x16x128_S1x64x16x128_0_960_0_0 : ∀ a, (![0, 960, 0, 0] : Fin 4 → Nat) a + S1x64x16x128.size a ≤ S1x1600x16x128.size a
  inb_S1x1600x16x128_S1x64x16x128_0_1024_0_0 : ∀ a, (![0, 1024, 0, 0] : Fin 4 → Nat) a + S1x64x16x128.size a ≤ S1x1600x16x128.size a
  inb_S1x1600x16x128_S1x64x16x128_0_1088_0_0 : ∀ a, (![0, 1088, 0, 0] : Fin 4 → Nat) a + S1x64x16x128.size a ≤ S1x1600x16x128.size a
  inb_S1x1600x16x128_S1x64x16x128_0_1152_0_0 : ∀ a, (![0, 1152, 0, 0] : Fin 4 → Nat) a + S1x64x16x128.size a ≤ S1x1600x16x128.size a
  inb_S1x1600x16x128_S1x64x16x128_0_1216_0_0 : ∀ a, (![0, 1216, 0, 0] : Fin 4 → Nat) a + S1x64x16x128.size a ≤ S1x1600x16x128.size a
  inb_S1x1600x16x128_S1x64x16x128_0_1280_0_0 : ∀ a, (![0, 1280, 0, 0] : Fin 4 → Nat) a + S1x64x16x128.size a ≤ S1x1600x16x128.size a
  inb_S1x1600x16x128_S1x64x16x128_0_1344_0_0 : ∀ a, (![0, 1344, 0, 0] : Fin 4 → Nat) a + S1x64x16x128.size a ≤ S1x1600x16x128.size a
  inb_S1x1600x16x128_S1x64x16x128_0_1408_0_0 : ∀ a, (![0, 1408, 0, 0] : Fin 4 → Nat) a + S1x64x16x128.size a ≤ S1x1600x16x128.size a
  inb_S1x1600x16x128_S1x64x16x128_0_1472_0_0 : ∀ a, (![0, 1472, 0, 0] : Fin 4 → Nat) a + S1x64x16x128.size a ≤ S1x1600x16x128.size a
  inb_S1x1600x16x128_S1x64x16x128_0_1536_0_0 : ∀ a, (![0, 1536, 0, 0] : Fin 4 → Nat) a + S1x64x16x128.size a ≤ S1x1600x16x128.size a
  inb_S1x64x16x128_S1x64x16x128_0_0_0_0 : ∀ a, (![0, 0, 0, 0] : Fin 4 → Nat) a + S1x64x16x128.size a ≤ S1x64x16x128.size a
  shapeCasts_S64x16x128_S1x64x16x128 : S64x16x128.ShapeCasts S1x64x16x128
  hrank0 : 0 < grid0.rank
  k0_off1_inb : ∀ i : grid0.Coords, ∀ (r : Fin 5), ∀ a, (k0_off1 i (BitVec.ofNat 32 r.val)) a + S1x64x16x128.size a ≤ S1x64x132x132.size a
  k0_off2_inb : ∀ i : grid0.Coords, ∀ (r : Fin 5), ∀ a, (k0_off2 i (BitVec.ofNat 32 r.val)) a + S1x64x16x128.size a ≤ S1x64x132x132.size a
  k0_off3_inb : ∀ i : grid0.Coords, ∀ (r : Fin 5), ∀ a, (k0_off3 i (BitVec.ofNat 32 r.val)) a + S1x64x16x128.size a ≤ S1x64x132x132.size a
  k0_off4_inb : ∀ i : grid0.Coords, ∀ (r : Fin 5), ∀ a, (k0_off4 i (BitVec.ofNat 32 r.val)) a + S1x64x16x128.size a ≤ S1x64x132x132.size a
  k0_off5_inb : ∀ i : grid0.Coords, ∀ (r : Fin 5), ∀ a, (k0_off5 i (BitVec.ofNat 32 r.val)) a + S1x64x16x128.size a ≤ S1x64x132x132.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x132x132.size a ≤ S4x64x132x132.size a
  hwx0_0 : ∀ i : grid0.Coords, EltTy.bits .f32 = 32 ∨ (Rect.block (s := S4x64x132x132) S1x64x132x132.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1600x16x128.size a ≤ S4x1600x128x128.size a
  hwx0_1 : ∀ i : grid0.Coords, EltTy.bits .f32 = 32 ∨ (Rect.block (s := S4x1600x128x128) S1x1600x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x16x128.size a ≤ S4x64x128x128.size a
  hwx0_2 : ∀ i : grid0.Coords, EltTy.bits .f32 = 32 ∨ (Rect.block (s := S4x64x128x128) S1x64x16x128.size (cc0_transform_2 i) (hinb0_2 i)).WholeWords (EltTy.packing .f32)

variable [Facts₀]

abbrev win0_0 : Pipeline.Window sig grid0 :=
  Pipeline.Window.ofSpec (Memref.whole main_v0) S1x64x132x132.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1600x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x16x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x128x128 : Shape := ⟨4, ![4, 64, 128, 128]⟩
abbrev S4x1600x128x128 : Shape := ⟨4, ![4, 1600, 128, 128]⟩
abbrev S4x25x64x128x128 : Shape := ⟨5, ![4, 25, 64, 128, 128]⟩
abbrev S_ : Shape := ⟨0, ![]⟩
abbrev S4x64x132x132 : Shape := ⟨4, ![4, 64, 132, 132]⟩
abbrev S4x1x64x128x128 : Shape := ⟨5, ![4, 1, 64, 128, 128]⟩
abbrev S4x16x64x128x128 : Shape := ⟨5, ![4, 16, 64, 128, 128]⟩
abbrev S4x9x64x128x128 : Shape := ⟨5, ![4, 9, 64, 128, 128]⟩

abbrev nBuf : Space → Nat
  | .hbm => 62
  | .vmem => 0
  | .smem => 0
  | _ => 0

abbrev bufTy : (tb : Table) → Fin (tcTables nBuf tb) → BufTy
  | .hbm, ⟨0, _⟩ => ⟨S4x64x128x128, .f32⟩
  | .hbm, ⟨1, _⟩ => ⟨S4x1600x128x128, .f32⟩
  | .hbm, ⟨2, _⟩ => ⟨S4x25x64x128x128, .f32⟩
  | .hbm, ⟨3, _⟩ => ⟨S_, .i32⟩
  | .hbm, ⟨4, _⟩ => ⟨S_, .f32⟩
  | .hbm, ⟨5, _⟩ => ⟨S4x64x132x132, .f32⟩
  | .hbm, ⟨6, _⟩ => ⟨S4x64x128x128, .f32⟩
  | .hbm, ⟨7, _⟩ => ⟨S4x64x128x128, .f32⟩
  | .hbm, ⟨8, _⟩ => ⟨S4x64x128x128, .f32⟩
  | .hbm, ⟨9, _⟩ => ⟨S4x64x128x128, .f32⟩
  | .hbm, ⟨10, _⟩ => ⟨S4x64x128x128, .f32⟩
  | .hbm, ⟨11, _⟩ => ⟨S4x64x128x128, .f32⟩
  | .hbm, ⟨12, _⟩ => ⟨S4x64x128x128, .f32⟩
  | .hbm, ⟨13, _⟩ => ⟨S4x64x128x128, .f32⟩
  | .hbm, ⟨14, _⟩ => ⟨S4x64x128x128, .f32⟩
  | .hbm, ⟨15, _⟩ => ⟨S4x64x128x128, .f32⟩
  | .hbm, ⟨16, _⟩ => ⟨S4x64x128x128, .f32⟩
  | .hbm, ⟨17, _⟩ => ⟨S4x64x128x128, .f32⟩
  | .hbm, ⟨18, _⟩ => ⟨S4x64x128x128, .f32⟩
  | .hbm, ⟨19, _⟩ => ⟨S4x64x128x128, .f32⟩
  | .hbm, ⟨20, _⟩ => ⟨S4x64x128x128, .f32⟩
  | .hbm, ⟨21, _⟩ => ⟨S4x64x128x128, .f32⟩
  | .hbm, ⟨22, _⟩ => ⟨S4x64x128x128, .f32⟩
  | .hbm, ⟨23, _⟩ => ⟨S4x64x128x128, .f32⟩
  | .hbm, ⟨24, _⟩ => ⟨S4x64x128x128, .f32⟩
  | .hbm, ⟨25, _⟩ => ⟨S4x64x128x128, .f32⟩
  | .hbm, ⟨26, _⟩ => ⟨S4x64x128x128, .f32⟩
  | .hbm, ⟨27, _⟩ => ⟨S4x64x128x128, .f32⟩
  | .hbm, ⟨28, _⟩ => ⟨S4x64x128x128, .f32⟩
  | .hbm, ⟨29, _⟩ => ⟨S4x64x128x128, .f32⟩
  | .hbm, ⟨30, _⟩ => ⟨S4x64x128x128, .f32⟩
  | .hbm, ⟨31, _⟩ => ⟨S4x1x64x128x128, .f32⟩
  | .hbm, ⟨32, _⟩ => ⟨S4x1x64x128x128, .f32⟩
  | .hbm, ⟨33, _⟩ => ⟨S4x1x64x128x128, .f32⟩
  | .hbm, ⟨34, _⟩ => ⟨S4x1x64x128x128, .f32⟩
  | .hbm, ⟨35, _⟩ => ⟨S4x1x64x128x128, .f32⟩
  | .hbm, ⟨36, _⟩ => ⟨S4x1x64x128x128, .f32⟩
  | .hbm, ⟨37, _⟩ => ⟨S4x1x64x128x128, .f32⟩
  | .hbm, ⟨38, _⟩ => ⟨S4x1x64x128x128, .f32⟩
  | .hbm, ⟨39, _⟩ => ⟨S4x1x64x128x128, .f32⟩
  | .hbm, ⟨40, _⟩ => ⟨S4x1x64x128x128, .f32⟩
  | .hbm, ⟨41, _⟩ => ⟨S4x1x64x128x128, .f32⟩
  | .hbm, ⟨42, _⟩ => ⟨S4x1x64x128x128, .f32⟩
  | .hbm, ⟨43, _⟩ => ⟨S4x1x64x128x128, .f32⟩
  | .hbm, ⟨44, _⟩ => ⟨S4x1x64x128x128, .f32⟩
  | .hbm, ⟨45, _⟩ => ⟨S4x1x64x128x128, .f32⟩
  | .hbm, ⟨46, _⟩ => ⟨S4x1x64x128x128, .f32⟩
  | .hbm, ⟨47, _⟩ => ⟨S4x1x64x128x128, .f32⟩
  | .hbm, ⟨48, _⟩ => ⟨S4x1x64x128x128, .f32⟩
  | .hbm, ⟨49, _⟩ => ⟨S4x1x64x128x128, .f32⟩
  | .hbm, ⟨50, _⟩ => ⟨S4x1x64x128x128, .f32⟩
  | .hbm, ⟨51, _⟩ => ⟨S4x1x64x128x128, .f32⟩
  | .hbm, ⟨52, _⟩ => ⟨S4x1x64x128x128, .f32⟩
  | .hbm, ⟨53, _⟩ => ⟨S4x1x64x128x128, .f32⟩
  | .hbm, ⟨54, _⟩ => ⟨S4x1x64x128x128, .f32⟩
  | .hbm, ⟨55, _⟩ => ⟨S4x1x64x128x128, .f32⟩
  | .hbm, ⟨56, _⟩ => ⟨S4x16x64x128x128, .f32⟩
  | .hbm, ⟨57, _⟩ => ⟨S4x9x64x128x128, .f32⟩
  | .hbm, ⟨58, _⟩ => ⟨S4x25x64x128x128, .f32⟩
  | .hbm, ⟨59, _⟩ => ⟨S4x25x64x128x128, .f32⟩
  | .hbm, ⟨60, _⟩ => ⟨S_, .f32⟩
  | .hbm, ⟨61, _⟩ => ⟨S4x64x128x128, .f32⟩
  | _, _ => ⟨S4x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_cst : Ref sig .tc := ⟨.hbm, 60, rfl⟩
abbrev main_v56 : Ref sig .tc := ⟨.hbm, 61, rfl⟩

abbrev nD : Nat := 1
abbrev τ : Topo := Topo.v7x

variable {F : FTy → Type} [FloatOps F]

class Facts₀ : Prop where
  shapeCasts_S4x1600x128x128_S4x25x64x128x128 : S4x1600x128x128.ShapeCasts S4x25x64x128x128
  pads_S4x64x128x128_S4x64x132x132_000_000_220_220 : S4x64x128x128.Pads (![0, 0, 2, 2] : Fin 4 → Nat) ![0, 0, 2, 2] ![0, 0, 0, 0] S4x64x132x132
  h_S_ : 0 < S_.numel
  slices_S4x64x132x132_S4x64x128x128_0_0_0_0 : S4x64x132x132.Slices ![0, 0, 0, 0] S4x64x128x128
  slices_S4x64x132x132_S4x64x128x128_0_0_0_1 : S4x64x132x132.Slices ![0, 0, 0, 1] S4x64x128x128
  slices_S4x64x132x132_S4x64x128x128_0_0_0_2 : S4x64x132x132.Slices ![0, 0, 0, 2] S4x64x128x128
  slices_S4x64x132x132_S4x64x128x128_0_0_0_3 : S4x64x132x132.Slices ![0, 0, 0, 3] S4x64x128x128
  slices_S4x64x132x132_S4x64x128x128_0_0_0_4 : S4x64x132x132.Slices ![0, 0, 0, 4] S4x64x128x128
  slices_S4x64x132x132_S4x64x128x128_0_0_1_0 : S4x64x132x132.Slices ![0, 0, 1, 0] S4x64x128x128
  slices_S4x64x132x132_S4x64x128x128_0_0_1_1 : S4x64x132x132.Slices ![0, 0, 1, 1] S4x64x128x128
  slices_S4x64x132x132_S4x64x128x128_0_0_1_2 : S4x64x132x132.Slices ![0, 0, 1, 2] S4x64x128x128
  slices_S4x64x132x132_S4x64x128x128_0_0_1_3 : S4x64x132x132.Slices ![0, 0, 1, 3] S4x64x128x128
  slices_S4x64x132x132_S4x64x128x128_0_0_1_4 : S4x64x132x132.Slices ![0, 0, 1, 4] S4x64x128x128
  slices_S4x64x132x132_S4x64x128x128_0_0_2_0 : S4x64x132x132.Slices ![0, 0, 2, 0] S4x64x128x128
  slices_S4x64x132x132_S4x64x128x128_0_0_2_1 : S4x64x132x132.Slices ![0, 0, 2, 1] S4x64x128x128
  slices_S4x64x132x132_S4x64x128x128_0_0_2_2 : S4x64x132x132.Slices ![0, 0, 2, 2] S4x64x128x128
  slices_S4x64x132x132_S4x64x128x128_0_0_2_3 : S4x64x132x132.Slices ![0, 0, 2, 3] S4x64x128x128
  slices_S4x64x132x132_S4x64x128x128_0_0_2_4 : S4x64x132x132.Slices ![0, 0, 2, 4] S4x64x128x128
  slices_S4x64x132x132_S4x64x128x128_0_0_3_0 : S4x64x132x132.Slices ![0, 0, 3, 0] S4x64x128x128
  slices_S4x64x132x132_S4x64x128x128_0_0_3_1 : S4x64x132x132.Slices ![0, 0, 3, 1] S4x64x128x128
  slices_S4x64x132x132_S4x64x128x128_0_0_3_2 : S4x64x132x132.Slices ![0, 0, 3, 2] S4x64x128x128
  slices_S4x64x132x132_S4x64x128x128_0_0_3_3 : S4x64x132x132.Slices ![0, 0, 3, 3] S4x64x128x128
  slices_S4x64x132x132_S4x64x128x128_0_0_3_4 : S4x64x132x132.Slices ![0, 0, 3, 4] S4x64x128x128
  slices_S4x64x132x132_S4x64x128x128_0_0_4_0 : S4x64x132x132.Slices ![0, 0, 4, 0] S4x64x128x128
  slices_S4x64x132x132_S4x64x128x128_0_0_4_1 : S4x64x132x132.Slices ![0, 0, 4, 1] S4x64x128x128
  slices_S4x64x132x132_S4x64x128x128_0_0_4_2 : S4x64x132x132.Slices ![0, 0, 4, 2] S4x64x128x128
  slices_S4x64x132x132_S4x64x128x128_0_0_4_3 : S4x64x132x132.Slices ![0, 0, 4, 3] S4x64x128x128
  slices_S4x64x132x132_S4x64x128x128_0_0_4_4 : S4x64x132x132.Slices ![0, 0, 4, 4] S4x64x128x128
  bcast_S4x64x128x128_S4x1x64x128x128_0_2_3_4 : S4x64x128x128.BroadcastsInDim S4x1x64x128x128 (![0, 2, 3, 4] : Fin 4 → Fin S4x1x64x128x128.rank)
  concatenates_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x16x64x128x128_d1 : Shape.Concatenates [S4x1x64x128x128, S4x1x64x128x128, S4x1x64x128x128, S4x1x64x128x128, S4x1x64x128x128, S4x1x64x128x128, S4x1x64x128x128, S4x1x64x128x128, S4x1x64x128x128, S4x1x64x128x128, S4x1x64x128x128, S4x1x64x128x128, S4x1x64x128x128, S4x1x64x128x128, S4x1x64x128x128, S4x1x64x128x128] S4x16x64x128x128 1
  concatenates_S4x1x64x128x128_S4x1x64x128x128_S4x1x64x128x128_S4x1x64x128x128_S4x1x64x128x128_S4x1x64x128x128_S4x1x64x128x128_S4x1x64x128x128_S4x1x64x128x128_S4x9x64x128x128_d1 : Shape.Concatenates [S4x1x64x128x128, S4x1x64x128x128, S4x1x64x128x128, S4x1x64x128x128, S4x1x64x128x128, S4x1x64x128x128, S4x1x64x128x128, S4x1x64x128x128, S4x1x64x128x128] S4x9x64x128x128 1
  concatenates_S4x16x64x128x128_S4x9x64x128x128_S4x25x64x128x128_d1 : Shape.Concatenates [S4x16x64x128x128, S4x9x64x128x128] S4x25x64x128x128 1
  reducesTo_S4x25x64x128x128_S4x64x128x128_d1 : S4x25x64x128x128.ReducesTo [1] S4x64x128x128

variable [Facts₀]

class Facts : Prop extends Facts₀ where

variable [Facts]
-- ==== Proof.Spec.lean ====
/-
  The per-pixel dynamic depthwise convolution, as ONE function of the zero-padded image and the per-pixel kernels.

  Output position (b, c, h, w) is the sum over the 25 taps k = 5·a + j (a the row shift, j the column shift, both 0..4) of
  the padded image at (b, c, h + a, w + j) times the kernel entry at (b, 64·k + c, h, w) — the 1600 kernel channels are the
  25 taps of the 64 image channels, tap-major. Nothing here mentions a program: both programs' results are shown
  elsewhere to be this function of their arguments.
-/
import Idealize.ShloMosaic.PureOps.Ideal
import Idealize.ShloMosaic.Lib.ValueIdx

noncomputable section

namespace Cert.Spec

open Idealize.ShloMosaic Idealize.ShloMosaic.ValueIdx

/-- Indices of the result and of the image, of the zero-padded image, and of the per-pixel kernels. -/
abbrev OutIdx := (⟨4, ![4, 64, 128, 128]⟩ : Shape).Idx
abbrev PadIdx := (⟨4, ![4, 64, 132, 132]⟩ : Shape).Idx
abbrev CoreIdx := (⟨4, ![4, 1600, 128, 128]⟩ : Shape).Idx

/-- The padded image's entry that tap `k = 5·a + j` reads for output position (b, c, h, w): row `h + a`, column `w + j`. -/
def padAt (k : Fin 25) (b : Fin 4) (c : Fin 64) (h w : Fin 128) : PadIdx :=
  ix4 b c ⟨h.val + k.val / 5, by omega⟩ ⟨w.val + k.val % 5, by omega⟩

/-- The kernel entry tap `k` multiplies it with: channel `64·k + c` at the same position. -/
def coreAt (k : Fin 25) (b : Fin 4) (c : Fin 64) (h w : Fin 128) : CoreIdx :=
  ix4 b ⟨64 * k.val + c.val, by omega⟩ h w

/-- The convolution: the 25 taps' products, summed. -/
def conv (dp : PadIdx → EReal) (core : CoreIdx → EReal) : OutIdx → EReal := fun i =>
  ∑ k : Fin 25, dp (padAt k (i 0) (i 1) (i 2) (i 3)) * core (coreAt k (i 0) (i 1) (i 2) (i 3))

theorem conv_apply (dp : PadIdx → EReal) (core : CoreIdx → EReal) (b : Fin 4) (c : Fin 64) (h w : Fin 128) :
    conv dp core (ix4 b c h w) = ∑ k : Fin 25, dp (padAt k b c h w) * core (coreAt k b c h w) := rfl

/-- A sum over the 25 taps written out first to last from zero, the order in which a running total adds them. -/
theorem sum25 (f : Fin 25 → EReal) :
    0 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 = ∑ k : Fin 25, f k := by
  simp only [Fin.sum_univ_castSucc, Fin.sum_univ_zero]
  rfl

end Cert.Spec

end
-- ==== Proof.Payload.lean ====
/-
  The kernel body's arithmetic, read at one position of the output block.

  The body keeps a running total: it starts from zero and, tap after tap (25 of them), adds the product of the image
  rows it loaded for that tap and the kernel rows it loaded for that tap; the loads come as blocks with a leading
  unit axis, which is dropped before the arithmetic and put back before the store. At a position (c, r, w) of the
  block the total is therefore the sum over the taps of the two loads' entries at (c, r, w): adding from zero in a
  fixed order is the sum, on the extended reals as on any commutative monoid.
-/
import proofs.«111455_j81312320848612_1_alg».proof.Proof.Gen.KernelIdeal.Skeleton
import proofs.«111455_j81312320848612_1_alg».proof.Proof.Spec
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The running total after the last tap, as the body computes it from the 25 pairs of loaded blocks
    (`d k` the image rows of tap `k`, `c k` its kernel rows). -/
def total {F : FTy → Type} [FloatOps F] (d c : Fin 25 → FVec F S1x64x16x128 .f32) : FVec F S1x64x16x128 .f32 :=
  k0_pay10 (k0_pay9 (k0_pay8 (k0_pay6 (k0_pay3 (k0_pay2 (k0_pay1 (d 0) (c 0) (d 1) (c 1) (d 2) (c 2)) (d 3) (c 3) (d 4) (c 4) (d 5) (c 5) (d 6) (c 6)) (d 7) (c 7) (d 8) (c 8) (d 9) (c 9)) (k0_pay4 (d 10)) (k0_pay5 (c 10)) (d 11) (c 11) (d 12) (c 12) (d 13) (c 13)) (k0_pay7 (d 14)) (c 14) (d 15) (c 15) (d 16) (c 16) (d 17) (c 17)) (d 18) (c 18) (d 19) (c 19) (d 20) (c 20) (d 21) (c 21)) (d 22) (c 22) (d 23) (c 23) (d 24) (c 24)

/-- At a position of the block the total is the sum over the taps of the products of the loads' entries there. -/
theorem total_apply (d c : Fin 25 → FVec Ideal S1x64x16x128 .f32) (u : Fin 1) (ch : Fin 64) (r : Fin 16) (w : Fin 128) :
    total (F := Ideal) d c (ix4 u ch r w) = ∑ k : Fin 25, d k (ix4 (0 : Fin 1) ch r w) * c k (ix4 (0 : Fin 1) ch r w) := by
  unfold total k0_pay10 k0_pay9 k0_pay8 k0_pay7 k0_pay6 k0_pay5 k0_pay4 k0_pay3 k0_pay2 k0_pay1
  simp only [shapeCast_abc_1abc_apply, shapeCast_1abc_abc_apply, addf_apply, mulf_apply, broadcast_apply]
  have hz : (Scalar.ofBits (F := Ideal) .f32 0x00000000#32) = (0 : EReal) := Ideal.ofBits_zero_f32
  rw [hz]
  exact Cert.Spec.sum25 fun k => d k (ix4 (0 : Fin 1) ch r w) * c k (ix4 (0 : Fin 1) ch r w)

end Cert.KernelIdeal.Payload

end
-- ==== Proof.Loads.lean ====
/-
  The 50 blocks the kernel body loads, and what each holds.

  For tap k = 5·a + j the body loads, from the padded image's block (64 channels × 132 × 132), the 16 rows starting at
  row 16·p + a (p the position of the row tile on the grid) and the 128 columns starting at column j; and from the
  kernels' block (1600 channels × 16 × 128) the 64 channels starting at channel 64·k. A load through a rectangle
  reads the buffer at the rectangle's offsets plus the position inside it.
-/
import proofs.«111455_j81312320848612_1_alg».proof.Proof.Gen.KernelIdeal
import Idealize.ShloMosaic.Lib.Pipeline.FrameBody
import Idealize.ShloMosaic.Lib.ValueIdx

noncomputable section

namespace Cert.KernelIdeal.Loads

open Cert.KernelIdeal Cert.KernelIdeal.Gen Idealize.ShloMosaic Idealize.ShloMosaic.ValueIdx

variable {Val : EltTy → Type}

/-- The image rows loaded for each tap, from the image block's contents `x0`, at the grid point `i`. -/
def imageLoads (i : grid0.Coords) (x0 : S1x64x132x132.Idx → Val .f32) : Fin 25 → (S1x64x16x128.Idx → Val .f32) :=
  ![View.ld x0 (Rect.unit (s := S1x64x132x132) (k0_off1 i 0#32) S1x64x16x128.size (k0_off1_inb i 0)),
    View.ld x0 (Rect.unit (s := S1x64x132x132) (k0_off2 i 0#32) S1x64x16x128.size (k0_off2_inb i 0)),
    View.ld x0 (Rect.unit (s := S1x64x132x132) (k0_off3 i 0#32) S1x64x16x128.size (k0_off3_inb i 0)),
    View.ld x0 (Rect.unit (s := S1x64x132x132) (k0_off4 i 0#32) S1x64x16x128.size (k0_off4_inb i 0)),
    View.ld x0 (Rect.unit (s := S1x64x132x132) (k0_off5 i 0#32) S1x64x16x128.size (k0_off5_inb i 0)),
    View.ld x0 (Rect.unit (s := S1x64x132x132) (k0_off1 i 1#32) S1x64x16x128.size (k0_off1_inb i 1)),
    View.ld x0 (Rect.unit (s := S1x64x132x132) (k0_off2 i 1#32) S1x64x16x128.size (k0_off2_inb i 1)),
    View.ld x0 (Rect.unit (s := S1x64x132x132) (k0_off3 i 1#32) S1x64x16x128.size (k0_off3_inb i 1)),
    View.ld x0 (Rect.unit (s := S1x64x132x132) (k0_off4 i 1#32) S1x64x16x128.size (k0_off4_inb i 1)),
    View.ld x0 (Rect.unit (s := S1x64x132x132) (k0_off5 i 1#32) S1x64x16x128.size (k0_off5_inb i 1)),
    View.ld x0 (Rect.unit (s := S1x64x132x132) (k0_off1 i 2#32) S1x64x16x128.size (k0_off1_inb i 2)),
    View.ld x0 (Rect.unit (s := S1x64x132x132) (k0_off2 i 2#32) S1x64x16x128.size (k0_off2_inb i 2)),
    View.ld x0 (Rect.unit (s := S1x64x132x132) (k0_off3 i 2#32) S1x64x16x128.size (k0_off3_inb i 2)),
    View.ld x0 (Rect.unit (s := S1x64x132x132) (k0_off4 i 2#32) S1x64x16x128.size (k0_off4_inb i 2)),
    View.ld x0 (Rect.unit (s := S1x64x132x132) (k0_off5 i 2#32) S1x64x16x128.size (k0_off5_inb i 2)),
    View.ld x0 (Rect.unit (s := S1x64x132x132) (k0_off1 i 3#32) S1x64x16x128.size (k0_off1_inb i 3)),
    View.ld x0 (Rect.unit (s := S1x64x132x132) (k0_off2 i 3#32) S1x64x16x128.size (k0_off2_inb i 3)),
    View.ld x0 (Rect.unit (s := S1x64x132x132) (k0_off3 i 3#32) S1x64x16x128.size (k0_off3_inb i 3)),
    View.ld x0 (Rect.unit (s := S1x64x132x132) (k0_off4 i 3#32) S1x64x16x128.size (k0_off4_inb i 3)),
    View.ld x0 (Rect.unit (s := S1x64x132x132) (k0_off5 i 3#32) S1x64x16x128.size (k0_off5_inb i 3)),
    View.ld x0 (Rect.unit (s := S1x64x132x132) (k0_off1 i 4#32) S1x64x16x128.size (k0_off1_inb i 4)),
    View.ld x0 (Rect.unit (s := S1x64x132x132) (k0_off2 i 4#32) S1x64x16x128.size (k0_off2_inb i 4)),
    View.ld x0 (Rect.unit (s := S1x64x132x132) (k0_off3 i 4#32) S1x64x16x128.size (k0_off3_inb i 4)),
    View.ld x0 (Rect.unit (s := S1x64x132x132) (k0_off4 i 4#32) S1x64x16x128.size (k0_off4_inb i 4)),
    View.ld x0 (Rect.unit (s := S1x64x132x132) (k0_off5 i 4#32) S1x64x16x128.size (k0_off5_inb i 4))]

/-- The kernel rows loaded for each tap, from the kernels block's contents `x1`. -/
def kernelLoads (x1 : S1x1600x16x128.Idx → Val .f32) : Fin 25 → (S1x64x16x128.Idx → Val .f32) :=
  ![View.ld x1 (Rect.unit (s := S1x1600x16x128) ![0, 0, 0, 0] S1x64x16x128.size inb_S1x1600x16x128_S1x64x16x128_0_0_0_0),
    View.ld x1 (Rect.unit (s := S1x1600x16x128) ![0, 64, 0, 0] S1x64x16x128.size inb_S1x1600x16x128_S1x64x16x128_0_64_0_0),
    View.ld x1 (Rect.unit (s := S1x1600x16x128) ![0, 128, 0, 0] S1x64x16x128.size inb_S1x1600x16x128_S1x64x16x128_0_128_0_0),
    View.ld x1 (Rect.unit (s := S1x1600x16x128) ![0, 192, 0, 0] S1x64x16x128.size inb_S1x1600x16x128_S1x64x16x128_0_192_0_0),
    View.ld x1 (Rect.unit (s := S1x1600x16x128) ![0, 256, 0, 0] S1x64x16x128.size inb_S1x1600x16x128_S1x64x16x128_0_256_0_0),
    View.ld x1 (Rect.unit (s := S1x1600x16x128) ![0, 320, 0, 0] S1x64x16x128.size inb_S1x1600x16x128_S1x64x16x128_0_320_0_0),
    View.ld x1 (Rect.unit (s := S1x1600x16x128) ![0, 384, 0, 0] S1x64x16x128.size inb_S1x1600x16x128_S1x64x16x128_0_384_0_0),
    View.ld x1 (Rect.unit (s := S1x1600x16x128) ![0, 448, 0, 0] S1x64x16x128.size inb_S1x1600x16x128_S1x64x16x128_0_448_0_0),
    View.ld x1 (Rect.unit (s := S1x1600x16x128) ![0, 512, 0, 0] S1x64x16x128.size inb_S1x1600x16x128_S1x64x16x128_0_512_0_0),
    View.ld x1 (Rect.unit (s := S1x1600x16x128) ![0, 576, 0, 0] S1x64x16x128.size inb_S1x1600x16x128_S1x64x16x128_0_576_0_0),
    View.ld x1 (Rect.unit (s := S1x1600x16x128) ![0, 640, 0, 0] S1x64x16x128.size inb_S1x1600x16x128_S1x64x16x128_0_640_0_0),
    View.ld x1 (Rect.unit (s := S1x1600x16x128) ![0, 704, 0, 0] S1x64x16x128.size inb_S1x1600x16x128_S1x64x16x128_0_704_0_0),
    View.ld x1 (Rect.unit (s := S1x1600x16x128) ![0, 768, 0, 0] S1x64x16x128.size inb_S1x1600x16x128_S1x64x16x128_0_768_0_0),
    View.ld x1 (Rect.unit (s := S1x1600x16x128) ![0, 832, 0, 0] S1x64x16x128.size inb_S1x1600x16x128_S1x64x16x128_0_832_0_0),
    View.ld x1 (Rect.unit (s := S1x1600x16x128) ![0, 896, 0, 0] S1x64x16x128.size inb_S1x1600x16x128_S1x64x16x128_0_896_0_0),
    View.ld x1 (Rect.unit (s := S1x1600x16x128) ![0, 960, 0, 0] S1x64x16x128.size inb_S1x1600x16x128_S1x64x16x128_0_960_0_0),
    View.ld x1 (Rect.unit (s := S1x1600x16x128) ![0, 1024, 0, 0] S1x64x16x128.size inb_S1x1600x16x128_S1x64x16x128_0_1024_0_0),
    View.ld x1 (Rect.unit (s := S1x1600x16x128) ![0, 1088, 0, 0] S1x64x16x128.size inb_S1x1600x16x128_S1x64x16x128_0_1088_0_0),
    View.ld x1 (Rect.unit (s := S1x1600x16x128) ![0, 1152, 0, 0] S1x64x16x128.size inb_S1x1600x16x128_S1x64x16x128_0_1152_0_0),
    View.ld x1 (Rect.unit (s := S1x1600x16x128) ![0, 1216, 0, 0] S1x64x16x128.size inb_S1x1600x16x128_S1x64x16x128_0_1216_0_0),
    View.ld x1 (Rect.unit (s := S1x1600x16x128) ![0, 1280, 0, 0] S1x64x16x128.size inb_S1x1600x16x128_S1x64x16x128_0_1280_0_0),
    View.ld x1 (Rect.unit (s := S1x1600x16x128) ![0, 1344, 0, 0] S1x64x16x128.size inb_S1x1600x16x128_S1x64x16x128_0_1344_0_0),
    View.ld x1 (Rect.unit (s := S1x1600x16x128) ![0, 1408, 0, 0] S1x64x16x128.size inb_S1x1600x16x128_S1x64x16x128_0_1408_0_0),
    View.ld x1 (Rect.unit (s := S1x1600x16x128) ![0, 1472, 0, 0] S1x64x16x128.size inb_S1x1600x16x128_S1x64x16x128_0_1472_0_0),
    View.ld x1 (Rect.unit (s := S1x1600x16x128) ![0, 1536, 0, 0] S1x64x16x128.size inb_S1x1600x16x128_S1x64x16x128_0_1536_0_0)]

/-- A load of 16 rows and 128 columns of every channel from row `R`, column `J` of the image block, read at
    (c, r, w): the block at (c, R + r, J + w). -/
theorem image_load (x0 : S1x64x132x132.Idx → Val .f32) (off : Fin 4 → Nat) (R J : Nat) (hoff : off = ![0, 0, R, J])
    (inb : ∀ a, off a + S1x64x16x128.size a ≤ S1x64x132x132.size a)
    (u : Fin 1) (ch : Fin 64) (r : Fin 16) (w : Fin 128) (hR : R + 16 ≤ 132) (hJ : J + 128 ≤ 132) :
    View.ld x0 (Rect.unit (s := S1x64x132x132) off S1x64x16x128.size inb) (ix4 u ch r w)
      = x0 (ix4 (0 : Fin 1) ch ⟨R + r.val, by omega⟩ ⟨J + w.val, by omega⟩) := by
  subst hoff
  refine congrArg x0 (funext fun a => Fin.ext ?_)
  match a with
  | ⟨0, _⟩ => show 0 + 1 * u.val = 0; omega
  | ⟨1, _⟩ => show 0 + 1 * ch.val = ch.val; omega
  | ⟨2, _⟩ => show R + 1 * r.val = R + r.val; omega
  | ⟨3, _⟩ => show J + 1 * w.val = J + w.val; omega

/-- A load of 64 channels from channel `C` of the kernels block, read at (c, r, w): the block at (C + c, r, w). -/
theorem kernel_load (x1 : S1x1600x16x128.Idx → Val .f32) (C : Nat)
    (inb : ∀ a, (![0, C, 0, 0] : Fin 4 → Nat) a + S1x64x16x128.size a ≤ S1x1600x16x128.size a)
    (u : Fin 1) (ch : Fin 64) (r : Fin 16) (w : Fin 128) (hC : C + 64 ≤ 1600) :
    View.ld x1 (Rect.unit (s := S1x1600x16x128) ![0, C, 0, 0] S1x64x16x128.size inb) (ix4 u ch r w)
      = x1 (ix4 (0 : Fin 1) ⟨C + ch.val, by omega⟩ r w) := by
  refine congrArg x1 (funext fun a => Fin.ext ?_)
  match a with
  | ⟨0, _⟩ => show 0 + 1 * u.val = 0; omega
  | ⟨1, _⟩ => show C + 1 * ch.val = C + ch.val; omega
  | ⟨2, _⟩ => show 0 + 1 * r.val = r.val; omega
  | ⟨3, _⟩ => show 0 + 1 * w.val = w.val; omega

/-- Tap `k = 5·a + j`'s image load at (c, r, w) is the image block at (c, 16·p + a + r, j + w). -/
theorem imageLoads_apply (i : grid0.Coords) (x0 : S1x64x132x132.Idx → Val .f32) (k : Fin 25)
    (u : Fin 1) (ch : Fin 64) (r : Fin 16) (w : Fin 128) :
    imageLoads i x0 k (ix4 u ch r w)
      = x0 (ix4 (0 : Fin 1) ch ⟨16 * (i 1).val + k.val / 5 + r.val, by have := (i 1).isLt; have : (i 1).val < 8 := this; omega⟩
          ⟨k.val % 5 + w.val, by omega⟩) := by
  have hp : (i 1).val < 8 := (i 1).isLt
  fin_cases k
  · exact image_load x0 _ (16 * (i 1).val + 0) 0 (k0_off1_eq i ⟨0, by decide⟩) _ u ch r w (by omega) (by omega)
  · exact image_load x0 _ (16 * (i 1).val + 0) 1 (k0_off2_eq i ⟨0, by decide⟩) _ u ch r w (by omega) (by omega)
  · exact image_load x0 _ (16 * (i 1).val + 0) 2 (k0_off3_eq i ⟨0, by decide⟩) _ u ch r w (by omega) (by omega)
  · exact image_load x0 _ (16 * (i 1).val + 0) 3 (k0_off4_eq i ⟨0, by decide⟩) _ u ch r w (by omega) (by omega)
  · exact image_load x0 _ (16 * (i 1).val + 0) 4 (k0_off5_eq i ⟨0, by decide⟩) _ u ch r w (by omega) (by omega)
  · exact image_load x0 _ (16 * (i 1).val + 1) 0 (k0_off1_eq i ⟨1, by decide⟩) _ u ch r w (by omega) (by omega)
  · exact image_load x0 _ (16 * (i 1).val + 1) 1 (k0_off2_eq i ⟨1, by decide⟩) _ u ch r w (by omega) (by omega)
  · exact image_load x0 _ (16 * (i 1).val + 1) 2 (k0_off3_eq i ⟨1, by decide⟩) _ u ch r w (by omega) (by omega)
  · exact image_load x0 _ (16 * (i 1).val + 1) 3 (k0_off4_eq i ⟨1, by decide⟩) _ u ch r w (by omega) (by omega)
  · exact image_load x0 _ (16 * (i 1).val + 1) 4 (k0_off5_eq i ⟨1, by decide⟩) _ u ch r w (by omega) (by omega)
  · exact image_load x0 _ (16 * (i 1).val + 2) 0 (k0_off1_eq i ⟨2, by decide⟩) _ u ch r w (by omega) (by omega)
  · exact image_load x0 _ (16 * (i 1).val + 2) 1 (k0_off2_eq i ⟨2, by decide⟩) _ u ch r w (by omega) (by omega)
  · exact image_load x0 _ (16 * (i 1).val + 2) 2 (k0_off3_eq i ⟨2, by decide⟩) _ u ch r w (by omega) (by omega)
  · exact image_load x0 _ (16 * (i 1).val + 2) 3 (k0_off4_eq i ⟨2, by decide⟩) _ u ch r w (by omega) (by omega)
  · exact image_load x0 _ (16 * (i 1).val + 2) 4 (k0_off5_eq i ⟨2, by decide⟩) _ u ch r w (by omega) (by omega)
  · exact image_load x0 _ (16 * (i 1).val + 3) 0 (k0_off1_eq i ⟨3, by decide⟩) _ u ch r w (by omega) (by omega)
  · exact image_load x0 _ (16 * (i 1).val + 3) 1 (k0_off2_eq i ⟨3, by decide⟩) _ u ch r w (by omega) (by omega)
  · exact image_load x0 _ (16 * (i 1).val + 3) 2 (k0_off3_eq i ⟨3, by decide⟩) _ u ch r w (by omega) (by omega)
  · exact image_load x0 _ (16 * (i 1).val + 3) 3 (k0_off4_eq i ⟨3, by decide⟩) _ u ch r w (by omega) (by omega)
  · exact image_load x0 _ (16 * (i 1).val + 3) 4 (k0_off5_eq i ⟨3, by decide⟩) _ u ch r w (by omega) (by omega)
  · exact image_load x0 _ (16 * (i 1).val + 4) 0 (k0_off1_eq i ⟨4, by decide⟩) _ u ch r w (by omega) (by omega)
  · exact image_load x0 _ (16 * (i 1).val + 4) 1 (k0_off2_eq i ⟨4, by decide⟩) _ u ch r w (by omega) (by omega)
  · exact image_load x0 _ (16 * (i 1).val + 4) 2 (k0_off3_eq i ⟨4, by decide⟩) _ u ch r w (by omega) (by omega)
  · exact image_load x0 _ (16 * (i 1).val + 4) 3 (k0_off4_eq i ⟨4, by decide⟩) _ u ch r w (by omega) (by omega)
  · exact image_load x0 _ (16 * (i 1).val + 4) 4 (k0_off5_eq i ⟨4, by decide⟩) _ u ch r w (by omega) (by omega)

/-- Tap `k`'s kernel load at (c, r, w) is the kernels block at (64·k + c, r, w). -/
theorem kernelLoads_apply (x1 : S1x1600x16x128.Idx → Val .f32) (k : Fin 25)
    (u : Fin 1) (ch : Fin 64) (r : Fin 16) (w : Fin 128) :
    kernelLoads x1 k (ix4 u ch r w) = x1 (ix4 (0 : Fin 1) ⟨64 * k.val + ch.val, by omega⟩ r w) := by
  fin_cases k
  · exact kernel_load x1 0 _ u ch r w (by omega)
  · exact kernel_load x1 64 _ u ch r w (by omega)
  · exact kernel_load x1 128 _ u ch r w (by omega)
  · exact kernel_load x1 192 _ u ch r w (by omega)
  · exact kernel_load x1 256 _ u ch r w (by omega)
  · exact kernel_load x1 320 _ u ch r w (by omega)
  · exact kernel_load x1 384 _ u ch r w (by omega)
  · exact kernel_load x1 448 _ u ch r w (by omega)
  · exact kernel_load x1 512 _ u ch r w (by omega)
  · exact kernel_load x1 576 _ u ch r w (by omega)
  · exact kernel_load x1 640 _ u ch r w (by omega)
  · exact kernel_load x1 704 _ u ch r w (by omega)
  · exact kernel_load x1 768 _ u ch r w (by omega)
  · exact kernel_load x1 832 _ u ch r w (by omega)
  · exact kernel_load x1 896 _ u ch r w (by omega)
  · exact kernel_load x1 960 _ u ch r w (by omega)
  · exact kernel_load x1 1024 _ u ch r w (by omega)
  · exact kernel_load x1 1088 _ u ch r w (by omega)
  · exact kernel_load x1 1152 _ u ch r w (by omega)
  · exact kernel_load x1 1216 _ u ch r w (by omega)
  · exact kernel_load x1 1280 _ u ch r w (by omega)
  · exact kernel_load x1 1344 _ u ch r w (by omega)
  · exact kernel_load x1 1408 _ u ch r w (by omega)
  · exact kernel_load x1 1472 _ u ch r w (by omega)
  · exact kernel_load x1 1536 _ u ch r w (by omega)

end Cert.KernelIdeal.Loads

end
-- ==== Proof.Body.lean ====
/-
  What the kernel body leaves in the output's staging buffer.

  The body makes one store, of the whole output block, and every value it stores is computed from loads of the two
  input blocks, whose buffers it never writes: so the buffer ends holding that stored value, whatever it held before,
  and the loads read the input blocks' contents. The stored value is the running total over the 25 taps of the
  image rows and kernel rows loaded for each tap.
-/
import proofs.«111455_j81312320848612_1_alg».proof.Proof.Gen.KernelIdeal.Frame
import proofs.«111455_j81312320848612_1_alg».proof.Proof.Payload
import proofs.«111455_j81312320848612_1_alg».proof.Proof.Loads
import Idealize.ShloMosaic.Lib.Pipeline.Value
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The offsets of the one store: the block's origin. -/
theorem origin : (![0, 0, 0, 0] : Fin 4 → Nat) = fun _ => 0 := funext fun a => by fin_cases a <;> rfl

/-- After the body, on any staging buffers holding the image block `x0` and the kernels block `x1`, the output's
    staging buffer holds the running total of the 25 taps' loads. -/
theorem out_eq (c : Dev nD) (i : grid0.Coords) (a2 : Memref sig .tc .vmem S1x64x132x132 .f32) (h2 : a2.IsWhole)
    (a3 : Memref sig .tc .vmem S1x1600x16x128 .f32) (h3 : a3.IsWhole) (a4 : Memref sig .tc .vmem S1x64x16x128 .f32) (h4 : a4.IsWhole)
    (x0 : Vec F S1x64x132x132 .f32) (x1 : Vec F S1x1600x16x128 .f32) :
    out0_A_2 c i a2 h2 a3 h3 a4 h4 x0 x1 = Payload.total (Loads.imageLoads i x0) (Loads.kernelLoads x1) := by
  unfold out0_A_2
  rw [View.read_writes_eq_canon _ _ _ (cover0_A_2 c i a2 h2 a3 h3 a4 h4 x0 x1)]
  unfold kernelRun0_A
  dsimp only
  sl_unfold_run_names
  rw [View.canon_unit_zero origin]
  simp only [View.readAt_eq_ld, h2.read_unread, h3.read_unread]
  rfl

end Cert.KernelIdeal.Body

end
-- ==== Proof.Blocks.lean ====
/-
  From the grid's blocks to the whole result array.

  The grid has 4 × 8 points: point (b, p) works on image b and on the p-th tile of 16 output rows. Its image block is
  the whole padded image b (all 64 channels, 132 × 132), its kernels block is rows 16·p .. 16·p + 15 of all 1600
  kernel channels of image b, and it writes rows 16·p .. 16·p + 15 of all 64 channels of result b. At position
  (c, r, w) of that output block the running total of the 25 taps is the convolution at (b, c, 16·p + r, w): tap
  k = 5·a + j read the padded image at row 16·p + a + r, column j + w, and the kernels at channel 64·k + c, row
  16·p + r. The 32 output blocks tile the result array, so the array ends holding the convolution everywhere.
-/
import proofs.«111455_j81312320848612_1_alg».proof.Proof.Gen.KernelIdeal.Value
import proofs.«111455_j81312320848612_1_alg».proof.Proof.Body
import proofs.«111455_j81312320848612_1_alg».proof.Proof.Spec
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

/-! ## One point, over any blocks -/

/-- Equal coordinates, equal indices. -/
theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  obtain rfl := Fin.ext ha; obtain rfl := Fin.ext hb; obtain rfl := Fin.ext hc; obtain rfl := Fin.ext hd; rfl

/-- At the grid point of image `bb` and row tile `p`, if the image block is padded image `bb` and the kernels block
    is rows 16·p.. of image `bb`'s kernels, the running total at (c, r, w) is the convolution at (bb, c, 16·p + r, w). -/
theorem point_eq (dp : PadIdx → EReal) (core : CoreIdx → EReal) (i : grid0.Coords)
    (x0 : S1x64x132x132.Idx → EReal) (x1 : S1x1600x16x128.Idx → EReal) (bb : Fin 4) (p : Fin 8) (hp : (i 1).val = p.val)
    (hx0 : ∀ (ch : Fin 64) (hh ww : Fin 132), x0 (ix4 (0 : Fin 1) ch hh ww) = dp (ix4 bb ch hh ww))
    (hx1 : ∀ (kc : Fin 1600) (r : Fin 16) (w : Fin 128),
      x1 (ix4 (0 : Fin 1) kc r w) = core (ix4 bb kc ⟨16 * p.val + r.val, by omega⟩ w))
    (u : Fin 1) (ch : Fin 64) (r : Fin 16) (w : Fin 128) :
    Payload.total (F := Ideal) (Loads.imageLoads (Val := Elt Ideal) i x0) (Loads.kernelLoads (Val := Elt Ideal) x1) (ix4 u ch r w)
      = conv dp core (ix4 bb ch ⟨16 * p.val + r.val, by omega⟩ w) := by
  rw [Payload.total_apply, conv_apply]
  refine Finset.sum_congr rfl fun k _ => ?_
  rw [Loads.imageLoads_apply, Loads.kernelLoads_apply, hx0, hx1]
  have e0 : (ix4 bb ch (⟨16 * (i 1).val + k.val / 5 + r.val, by omega⟩ : Fin 132) (⟨k.val % 5 + w.val, by omega⟩ : Fin 132) : PadIdx)
      = padAt k bb ch ⟨16 * p.val + r.val, by omega⟩ w :=
    ix4_congr rfl rfl (by show 16 * (i 1).val + k.val / 5 + r.val = 16 * p.val + r.val + k.val / 5; omega)
      (by show k.val % 5 + w.val = w.val + k.val % 5; omega)
  have e1 : (ix4 bb (⟨64 * k.val + ch.val, by omega⟩ : Fin 1600) (⟨16 * p.val + r.val, by omega⟩ : Fin 128) w : CoreIdx)
      = coreAt k bb ch ⟨16 * p.val + r.val, by omega⟩ w := rfl
  rw [e0, e1]

variable (m : (ℓ : Loc nD τ sig) → Buf (Elt Ideal) ℓ) (ρ : Dev nD → PrngReg)

/-! ## The grid's blocks -/

/-- The printed index maps over the 32 points: the image block is the whole padded image the output block belongs
    to; the kernels block has the output block's image and row tile; the output block's position on the grid's
    second axis is its row tile; the ranges. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 3 ∧ win0_2.index t (2 : Fin 4) ≤ 7
    ∧ (grid0.coords t 1).val = win0_2.index t (2 : Fin 4) :=
  (by decide +kernel : ∀ t : Fin grid0.N, _)

/-- Every (image, row tile) pair is some point's output block. -/
theorem idx_onto : ∀ (q0 : Fin 4) (q2 : Fin 8), ∃ t : Fin cfg0.N, win0_2.index t = ![q0.val, 0, q2.val, 0] :=
  (by decide +kernel : ∀ (q0 : Fin 4) (q2 : Fin 8), ∃ t : Fin grid0.N, win0_2.index t = ![q0.val, 0, q2.val, 0])

/-- The image block at point `t` is the padded image of the output block's image. -/
theorem image_block (c : Dev nD) (t : Fin cfg0.N) (bb : Fin 4) (hb : win0_2.index t (0 : Fin 4) = bb.val)
    (ch : Fin 64) (hh ww : Fin 132) :
    iblk m c 0 t (ix4 (0 : Fin 1) ch hh ww) = V m c main_v0 (ix4 bb ch hh ww) := by
  obtain ⟨e0, e1, e2, e3, -⟩ := idx_facts t
  show V m c main_v0 (((cfg0.win 0).blk t).view.emb (ix4 (0 : Fin 1) ch hh ww)) = V m c main_v0 (ix4 bb ch hh ww)
  refine congrArg (V m c main_v0) (funext fun a => Fin.ext ?_)
  match a with
  | ⟨0, _⟩ => show win0_0.index t (0 : Fin 4) * 1 + 1 * 0 = bb.val; omega
  | ⟨1, _⟩ => show win0_0.index t (1 : Fin 4) * 64 + 1 * ch.val = ch.val; omega
  | ⟨2, _⟩ => show win0_0.index t (2 : Fin 4) * 132 + 1 * hh.val = hh.val; omega
  | ⟨3, _⟩ => show win0_0.index t (3 : Fin 4) * 132 + 1 * ww.val = ww.val; omega

/-- The kernels block at point `t` is the output block's row tile of its image's kernels. -/
theorem kernels_block (c : Dev nD) (t : Fin cfg0.N) (bb : Fin 4) (hb : win0_2.index t (0 : Fin 4) = bb.val)
    (p : Fin 8) (hp : win0_2.index t (2 : Fin 4) = p.val) (kc : Fin 1600) (r : Fin 16) (w : Fin 128) :
    iblk m c 1 t (ix4 (0 : Fin 1) kc r w) = V m c main_arg1 (ix4 bb kc ⟨16 * p.val + r.val, by omega⟩ w) := by
  obtain ⟨-, -, -, -, e4, e5, e6, e7, -⟩ := idx_facts t
  show V m c main_arg1 (((cfg0.win 1).blk t).view.emb (ix4 (0 : Fin 1) kc r w)) = V m c main_arg1 (ix4 bb kc ⟨16 * p.val + r.val, by omega⟩ w)
  refine congrArg (V m c main_arg1) (funext fun a => Fin.ext ?_)
  match a with
  | ⟨0, _⟩ => show win0_1.index t (0 : Fin 4) * 1 + 1 * 0 = bb.val; omega
  | ⟨1, _⟩ => show win0_1.index t (1 : Fin 4) * 1600 + 1 * kc.val = kc.val; omega
  | ⟨2, _⟩ => show win0_1.index t (2 : Fin 4) * 16 + 1 * r.val = 16 * p.val + r.val; omega
  | ⟨3, _⟩ => show win0_1.index t (3 : Fin 4) * 128 + 1 * w.val = w.val; omega

/-- What point `t` writes back is its block of the convolution of the arrays the region found. -/
theorem flushed_eq (c : Dev nD) (t : Fin cfg0.N) :
    (dats m 0 c).flushed 2 t
      = ((cfg0.win 2).blk t).view.read (Elt Ideal) (conv (V m c main_v0) (V m c main_arg1)) := by
  rw [Value.flushed2_A, Body.out_eq]
  obtain ⟨-, -, -, -, -, -, -, -, e8, e9, e10, e11, e12⟩ := idx_facts t
  funext y
  show Payload.total (F := Ideal) (Loads.imageLoads (Val := Elt Ideal) (grid0.coords t) (iblk m c 0 t)) (Loads.kernelLoads (Val := Elt Ideal) (iblk m c 1 t)) (ix4 (y 0) (y 1) (y 2) (y 3))
    = conv (V m c main_v0) (V m c main_arg1) (((cfg0.win 2).blk t).view.emb y)
  refine (point_eq (V m c main_v0) (V m c main_arg1) (grid0.coords t) (iblk m c 0 t) (iblk m c 1 t)
    ⟨win0_2.index t (0 : Fin 4), by omega⟩ ⟨win0_2.index t (2 : Fin 4), by omega⟩ e12
    (image_block m c t ⟨win0_2.index t (0 : Fin 4), by omega⟩ rfl)
    (kernels_block m c t ⟨win0_2.index t (0 : Fin 4), by omega⟩ rfl ⟨win0_2.index t (2 : Fin 4), by omega⟩ rfl)
    (y 0) (y 1) (y 2) (y 3)).trans ?_
  refine congrArg (conv (V m c main_v0) (V m c main_arg1)) (funext fun a => Fin.ext ?_)
  match a with
  | ⟨0, _⟩ => show win0_2.index t (0 : Fin 4) = win0_2.index t (0 : Fin 4) * 1 + 1 * (y 0).val; have := (y 0).isLt; have : (y 0).val < 1 := this; omega
  | ⟨1, _⟩ => show (y 1).val = win0_2.index t (1 : Fin 4) * 64 + 1 * (y 1).val; omega
  | ⟨2, _⟩ => show 16 * win0_2.index t (2 : Fin 4) + (y 2).val = win0_2.index t (2 : Fin 4) * 16 + 1 * (y 2).val; omega
  | ⟨3, _⟩ => show (y 3).val = win0_2.index t (3 : Fin 4) * 128 + 1 * (y 3).val; omega

/-- An index of the result array is in point `t`'s block iff each coordinate is in the block's range. -/
theorem mem_blk (t : Fin cfg0.N) (i : S4x64x128x128.Idx) :
    i ∈ ((cfg0.win 2).blk t).view.set ↔ ∀ a : Fin 4, win0_2.index t a * S1x64x16x128.size a ≤ (i a).val ∧ (i a).val < win0_2.index t a * S1x64x16x128.size a + S1x64x16x128.size a := by
  show i ∈ ((View.whole main_v1).slice (win0_2.rect t)).set ↔ _
  rw [View.set_slice_whole, Rect.mem_set_unit]
  exact Iff.rfl

/-- The 32 output blocks cover the result array: position (b, c, h, w) is in the block of image b, row tile h / 16. -/
theorem cover (i : S4x64x128x128.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 128 := (i 2).isLt
  have hi3 : (i 3).val < 128 := (i 3).isLt
  obtain ⟨t, ht⟩ := idx_onto ⟨(i 0).val, hi0⟩ ⟨(i 2).val / 16, by omega⟩
  have q0 : win0_2.index t (0 : Fin 4) = (i 0).val := congrFun ht 0
  have q1 : win0_2.index t (1 : Fin 4) = 0 := congrFun ht 1
  have q2 : win0_2.index t (2 : Fin 4) = (i 2).val / 16 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 16 ≤ (i 2).val ∧ (i 2).val < win0_2.index t (2 : Fin 4) * 16 + 16; omega
  | ⟨3, _⟩ => show win0_2.index t (3 : Fin 4) * 128 ≤ (i 3).val ∧ (i 3).val < win0_2.index t (3 : Fin 4) * 128 + 128; omega

/-- The result array after the run: the convolution of the arrays the region found. -/
theorem final (c : Dev nD) : (dats m 0 c).arrAt 2 cfg0.N = conv (V m c main_v0) (V m c main_arg1) :=
  (dats m 0 c).arrAt_eq_of_cover 2 _ (fun t _ => flushed_eq m c t) cover

/-! ## The arrays the region finds -/

/-- The padded image the region finds is the host's zero padding of the image argument. -/
theorem V_padded (c : Dev nD) :
    (V m c main_v0 : S4x64x132x132.Idx → EReal)
      = pad S4x64x132x132 ![0, 0, 2, 2] ![0, 0, 2, 2] ![0, 0, 0, 0] (m ((c : Thread nD τ).loc main_arg0))
          (sitofp (F := Ideal) .f32 (constantI S_ 32 0#32)) pads_S4x64x128x128_S4x64x132x132_000_000_220_220 h_S_ := by
  dsimp only [Gen.V]
  simp only [Gen.hostOps0, Gen.hostOps0_1, List.flatten_cons, List.flatten_nil, List.append_nil, List.cons_append,
    List.nil_append]
  after_results
  rfl

/-! ## The run -/

/-- Every weakly fair execution of the kernel's program ends with the result array at the convolution of the
    zero-padded image argument with the kernels argument, the arguments unchanged. -/
theorem run : θ_run defs (onTc (τ := τ) (main (F := Ideal))) ⟨m, fun _ => 0, ρ⟩ fun r => ∀ c : Dev nD,
      r.2.mem ((c : Thread nD τ).loc main_v1)
        = conv (pad S4x64x132x132 ![0, 0, 2, 2] ![0, 0, 2, 2] ![0, 0, 0, 0] (m ((c : Thread nD τ).loc main_arg0))
            (sitofp (F := Ideal) .f32 (constantI S_ 32 0#32)) pads_S4x64x128x128_S4x64x132x132_000_000_220_220 h_S_)
          (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, V_padded m c, V_main_arg1 m c], (h c).2⟩)
    (Value.run_blocks m ρ)

end Cert.KernelIdeal.Blocks

end
-- ==== Proof.RefValue.lean ====
/-
  The reference's result is the convolution of the zero-padded image with the per-pixel kernels.

  The reference pads the image, cuts out the 25 shifted copies (copy k = 5·a + j is rows a.., columns j..), gives each
  a unit axis, joins them along that axis (sixteen, then nine, then the two groups), multiplies entry by entry with
  the kernels viewed as 25 × 64 channels, and sums over the joined axis from zero. Read at an output position
  (b, c, h, w): entry k of the joined stack is the padded image at (b, c, h + a, w + j); the kernels viewed
  [4, 25, 64, 128, 128] at (b, k, c, h, w) are the kernels at channel 64·k + c; so the sum is the convolution
  (a product's factors in the other order, and a leading zero term).
-/
import proofs.«111455_j81312320848612_1_alg».proof.Proof.Gen.ReferenceIdeal
import proofs.«111455_j81312320848612_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.Spec

/-! ## The stages of the reference, named -/

/-- The image with two rows and two columns of zeros on every side. -/
def padded (x0 : OutIdx → EReal) : PadIdx → EReal :=
  pad S4x64x132x132 ![0, 0, 2, 2] ![0, 0, 2, 2] ![0, 0, 0, 0] x0 (sitofp (F := Ideal) .f32 (constantI S_ 32 0#32))
    pads_S4x64x128x128_S4x64x132x132_000_000_220_220 h_S_

/-- One shifted copy of the padded image `dp`, rows `A..`, columns `J..`, with its unit axis. -/
def copy (dp : PadIdx → EReal) (A J : Nat) (hs : S4x64x132x132.Slices ![0, 0, A, J] S4x64x128x128) :
    S4x1x64x128x128.Idx → EReal :=
  broadcastInDim S4x1x64x128x128 ![0, 2, 3, 4] bcast_S4x64x128x128_S4x1x64x128x128_0_2_3_4
    (extractStridedSlice S4x64x128x128 ![0, 0, A, J] dp hs)

/-- The first sixteen copies and the last nine, as families over the position on the joined axis. -/
def first16 (dp : PadIdx → EReal) : Fin 16 → (S4x1x64x128x128.Idx → EReal) :=
  ![copy dp 0 0 slices_S4x64x132x132_S4x64x128x128_0_0_0_0, copy dp 0 1 slices_S4x64x132x132_S4x64x128x128_0_0_0_1, copy dp 0 2 slices_S4x64x132x132_S4x64x128x128_0_0_0_2, copy dp 0 3 slices_S4x64x132x132_S4x64x128x128_0_0_0_3, copy dp 0 4 slices_S4x64x132x132_S4x64x128x128_0_0_0_4, copy dp 1 0 slices_S4x64x132x132_S4x64x128x128_0_0_1_0, copy dp 1 1 slices_S4x64x132x132_S4x64x128x128_0_0_1_1, copy dp 1 2 slices_S4x64x132x132_S4x64x128x128_0_0_1_2, copy dp 1 3 slices_S4x64x132x132_S4x64x128x128_0_0_1_3, copy dp 1 4 slices_S4x64x132x132_S4x64x128x128_0_0_1_4, copy dp 2 0 slices_S4x64x132x132_S4x64x128x128_0_0_2_0, copy dp 2 1 slices_S4x64x132x132_S4x64x128x128_0_0_2_1, copy dp 2 2 slices_S4x64x132x132_S4x64x128x128_0_0_2_2, copy dp 2 3 slices_S4x64x132x132_S4x64x128x128_0_0_2_3, copy dp 2 4 slices_S4x64x132x132_S4x64x128x128_0_0_2_4, copy dp 3 0 slices_S4x64x132x132_S4x64x128x128_0_0_3_0]
def last9 (dp : PadIdx → EReal) : Fin 9 → (S4x1x64x128x128.Idx → EReal) :=
  ![copy dp 3 1 slices_S4x64x132x132_S4x64x128x128_0_0_3_1, copy dp 3 2 slices_S4x64x132x132_S4x64x128x128_0_0_3_2, copy dp 3 3 slices_S4x64x132x132_S4x64x128x128_0_0_3_3, copy dp 3 4 slices_S4x64x132x132_S4x64x128x128_0_0_3_4, copy dp 4 0 slices_S4x64x132x132_S4x64x128x128_0_0_4_0, copy dp 4 1 slices_S4x64x132x132_S4x64x128x128_0_0_4_1, copy dp 4 2 slices_S4x64x132x132_S4x64x128x128_0_0_4_2, copy dp 4 3 slices_S4x64x132x132_S4x64x128x128_0_0_4_3, copy dp 4 4 slices_S4x64x132x132_S4x64x128x128_0_0_4_4]

/-- The 25 copies joined along the unit axis: sixteen, nine, then the two groups. -/
def stack (dp : PadIdx → EReal) : S4x25x64x128x128.Idx → EReal :=
  concatenate S4x25x64x128x128 1
    [⟨S4x16x64x128x128, concatenate S4x16x64x128x128 1
        (List.ofFn fun n : Fin 16 => (⟨S4x1x64x128x128, first16 dp n⟩ : (s : Shape) × (s.Idx → EReal))) concatenates_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x16x64x128x128_d1⟩,
     ⟨S4x9x64x128x128, concatenate S4x9x64x128x128 1
        (List.ofFn fun n : Fin 9 => (⟨S4x1x64x128x128, last9 dp n⟩ : (s : Shape) × (s.Idx → EReal))) concatenates_S4x1x64x128x128_S4x1x64x128x128_S4x1x64x128x128_S4x1x64x128x128_S4x1x64x128x128_S4x1x64x128x128_S4x1x64x128x128_S4x1x64x128x128_S4x1x64x128x128_S4x9x64x128x128_d1⟩]
    concatenates_S4x16x64x128x128_S4x9x64x128x128_S4x25x64x128x128_d1

/-- The reference's result: the kernels viewed as 25 × 64 channels times the stack, summed over the 25 from zero. -/
def result (x0 : OutIdx → EReal) (x1 : CoreIdx → EReal) : OutIdx → EReal :=
  Host.reduceAdd (F := Ideal) (mulf (F := Ideal) (φ := .f32) (shapeCast S4x25x64x128x128 x1 shapeCasts_S4x1600x128x128_S4x25x64x128x128) (stack (padded x0)))
    (constant (F := Ideal) S_ .f32 0x00000000#32) reducesTo_S4x25x64x128x128_S4x64x128x128_d1 h_S_

/-! ## The stages read at a position -/

/-- A shifted copy at (b, ·, c, h, w) is the padded image at (b, c, h + A, w + J). -/
theorem copy_apply (dp : PadIdx → EReal) (A J : Nat) (hA : A ≤ 4) (hJ : J ≤ 4)
    (hs : S4x64x132x132.Slices ![0, 0, A, J] S4x64x128x128)
    (b : Fin 4) (u : Fin 1) (c : Fin 64) (h w : Fin 128) :
    copy dp A J hs (ix5 b u c h w) = dp (ix4 b c ⟨h.val + A, by omega⟩ ⟨w.val + J, by omega⟩) := by
  unfold copy
  refine (broadcastInDim_apply _ bcast_S4x64x128x128_S4x1x64x128x128_0_2_3_4 _ (ix5 b u c h w) (ix4 b c h w) (fun a => ?_)).trans ?_
  · match a with
    | ⟨0, _⟩ => show b.val = if (4 : Nat) = 1 then 0 else b.val; rw [if_neg (by decide)]
    | ⟨1, _⟩ => show c.val = if (64 : Nat) = 1 then 0 else c.val; rw [if_neg (by decide)]
    | ⟨2, _⟩ => show h.val = if (128 : Nat) = 1 then 0 else h.val; rw [if_neg (by decide)]
    | ⟨3, _⟩ => show w.val = if (128 : Nat) = 1 then 0 else w.val; rw [if_neg (by decide)]
  · refine extractStridedSlice_apply _ dp hs (ix4 b c h w) _ (fun a => ?_)
    match a with
    | ⟨0, _⟩ => show b.val = 0 + b.val; omega
    | ⟨1, _⟩ => show c.val = 0 + c.val; omega
    | ⟨2, _⟩ => show h.val + A = A + h.val; omega
    | ⟨3, _⟩ => show w.val + J = J + w.val; omega

/-- Copy `n` of the first group is the padded image shifted by tap `n`. -/
theorem first16_apply (dp : PadIdx → EReal) (n : Fin 16) (b : Fin 4) (u : Fin 1) (c : Fin 64) (h w : Fin 128) :
    first16 dp n (ix5 b u c h w) = dp (padAt ⟨n.val, by omega⟩ b c h w) := by
  fin_cases n
  · exact copy_apply dp 0 0 (by omega) (by omega) slices_S4x64x132x132_S4x64x128x128_0_0_0_0 b u c h w
  · exact copy_apply dp 0 1 (by omega) (by omega) slices_S4x64x132x132_S4x64x128x128_0_0_0_1 b u c h w
  · exact copy_apply dp 0 2 (by omega) (by omega) slices_S4x64x132x132_S4x64x128x128_0_0_0_2 b u c h w
  · exact copy_apply dp 0 3 (by omega) (by omega) slices_S4x64x132x132_S4x64x128x128_0_0_0_3 b u c h w
  · exact copy_apply dp 0 4 (by omega) (by omega) slices_S4x64x132x132_S4x64x128x128_0_0_0_4 b u c h w
  · exact copy_apply dp 1 0 (by omega) (by omega) slices_S4x64x132x132_S4x64x128x128_0_0_1_0 b u c h w
  · exact copy_apply dp 1 1 (by omega) (by omega) slices_S4x64x132x132_S4x64x128x128_0_0_1_1 b u c h w
  · exact copy_apply dp 1 2 (by omega) (by omega) slices_S4x64x132x132_S4x64x128x128_0_0_1_2 b u c h w
  · exact copy_apply dp 1 3 (by omega) (by omega) slices_S4x64x132x132_S4x64x128x128_0_0_1_3 b u c h w
  · exact copy_apply dp 1 4 (by omega) (by omega) slices_S4x64x132x132_S4x64x128x128_0_0_1_4 b u c h w
  · exact copy_apply dp 2 0 (by omega) (by omega) slices_S4x64x132x132_S4x64x128x128_0_0_2_0 b u c h w
  · exact copy_apply dp 2 1 (by omega) (by omega) slices_S4x64x132x132_S4x64x128x128_0_0_2_1 b u c h w
  · exact copy_apply dp 2 2 (by omega) (by omega) slices_S4x64x132x132_S4x64x128x128_0_0_2_2 b u c h w
  · exact copy_apply dp 2 3 (by omega) (by omega) slices_S4x64x132x132_S4x64x128x128_0_0_2_3 b u c h w
  · exact copy_apply dp 2 4 (by omega) (by omega) slices_S4x64x132x132_S4x64x128x128_0_0_2_4 b u c h w
  · exact copy_apply dp 3 0 (by omega) (by omega) slices_S4x64x132x132_S4x64x128x128_0_0_3_0 b u c h w

/-- Copy `n` of the second group is the padded image shifted by tap `16 + n`. -/
theorem last9_apply (dp : PadIdx → EReal) (n : Fin 9) (b : Fin 4) (u : Fin 1) (c : Fin 64) (h w : Fin 128) :
    last9 dp n (ix5 b u c h w) = dp (padAt ⟨16 + n.val, by omega⟩ b c h w) := by
  fin_cases n
  · exact copy_apply dp 3 1 (by omega) (by omega) slices_S4x64x132x132_S4x64x128x128_0_0_3_1 b u c h w
  · exact copy_apply dp 3 2 (by omega) (by omega) slices_S4x64x132x132_S4x64x128x128_0_0_3_2 b u c h w
  · exact copy_apply dp 3 3 (by omega) (by omega) slices_S4x64x132x132_S4x64x128x128_0_0_3_3 b u c h w
  · exact copy_apply dp 3 4 (by omega) (by omega) slices_S4x64x132x132_S4x64x128x128_0_0_3_4 b u c h w
  · exact copy_apply dp 4 0 (by omega) (by omega) slices_S4x64x132x132_S4x64x128x128_0_0_4_0 b u c h w
  · exact copy_apply dp 4 1 (by omega) (by omega) slices_S4x64x132x132_S4x64x128x128_0_0_4_1 b u c h w
  · exact copy_apply dp 4 2 (by omega) (by omega) slices_S4x64x132x132_S4x64x128x128_0_0_4_2 b u c h w
  · exact copy_apply dp 4 3 (by omega) (by omega) slices_S4x64x132x132_S4x64x128x128_0_0_4_3 b u c h w
  · exact copy_apply dp 4 4 (by omega) (by omega) slices_S4x64x132x132_S4x64x128x128_0_0_4_4 b u c h w

/-- Entry `k` of the joined stack at (b, k, c, h, w) is the padded image shifted by tap `k`. -/
theorem stack_apply (dp : PadIdx → EReal) (k : Fin 25) (b : Fin 4) (c : Fin 64) (h w : Fin 128) :
    stack dp (ix5 b k c h w) = dp (padAt k b c h w) := by
  unfold stack
  by_cases hk : k.val < 16
  · refine (concatenate_pair_apply_left (t := S4x25x64x128x128) (s₁ := S4x16x64x128x128) (s₂ := S4x9x64x128x128) (1 : Fin 5) _ _ concatenates_S4x16x64x128x128_S4x9x64x128x128_S4x25x64x128x128_d1
      (ix5 b k c h w) rfl (ix5 b (⟨k.val, hk⟩ : Fin 16) c h w) (fun a => ?_)).trans ?_
    · match a with
      | ⟨0, _⟩ => rfl
      | ⟨1, _⟩ => rfl
      | ⟨2, _⟩ => rfl
      | ⟨3, _⟩ => rfl
      | ⟨4, _⟩ => rfl
    · refine (concatenate_ofFn_unit_apply (t := S4x16x64x128x128) (s₁ := S4x1x64x128x128) (1 : Fin 5) (first16 dp) concatenates_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x1x64x128x128_S4x16x64x128x128_d1 rfl rfl
        (ix5 b (⟨k.val, hk⟩ : Fin 16) c h w) ⟨k.val, hk⟩ rfl (ix5 b (0 : Fin 1) c h w) (fun a ha => ?_)).trans
        (first16_apply dp ⟨k.val, hk⟩ b 0 c h w)
      match a with
      | ⟨0, _⟩ => rfl
      | ⟨1, _⟩ => exact absurd rfl ha
      | ⟨2, _⟩ => rfl
      | ⟨3, _⟩ => rfl
      | ⟨4, _⟩ => rfl
  · have hk' : k.val - 16 < 9 := by omega
    refine (concatenate_pair_apply_right (t := S4x25x64x128x128) (s₁ := S4x16x64x128x128) (s₂ := S4x9x64x128x128) (1 : Fin 5) _ _ concatenates_S4x16x64x128x128_S4x9x64x128x128_S4x25x64x128x128_d1
      (ix5 b k c h w) rfl rfl (ix5 b (⟨k.val - 16, hk'⟩ : Fin 9) c h w) (fun a ha => ?_) ?_).trans ?_
    · match a with
      | ⟨0, _⟩ => rfl
      | ⟨1, _⟩ => exact absurd rfl ha
      | ⟨2, _⟩ => rfl
      | ⟨3, _⟩ => rfl
      | ⟨4, _⟩ => rfl
    · show k.val - 16 + 16 = k.val; omega
    · refine ((concatenate_ofFn_unit_apply (t := S4x9x64x128x128) (s₁ := S4x1x64x128x128) (1 : Fin 5) (last9 dp) concatenates_S4x1x64x128x128_S4x1x64x128x128_S4x1x64x128x128_S4x1x64x128x128_S4x1x64x128x128_S4x1x64x128x128_S4x1x64x128x128_S4x1x64x128x128_S4x1x64x128x128_S4x9x64x128x128_d1 rfl rfl
        (ix5 b (⟨k.val - 16, hk'⟩ : Fin 9) c h w) ⟨k.val - 16, hk'⟩ rfl (ix5 b (0 : Fin 1) c h w) (fun a ha => ?_)).trans
        (last9_apply dp ⟨k.val - 16, hk'⟩ b 0 c h w)).trans ?_
      · match a with
        | ⟨0, _⟩ => rfl
        | ⟨1, _⟩ => exact absurd rfl ha
        | ⟨2, _⟩ => rfl
        | ⟨3, _⟩ => rfl
        | ⟨4, _⟩ => rfl
      · exact congrArg (fun q : Fin 25 => dp (padAt q b c h w)) (Fin.ext (by show 16 + (k.val - 16) = k.val; omega))

/-- The kernels viewed [4, 25, 64, 128, 128] at (b, k, c, h, w) are the kernels at channel 64·k + c. -/
theorem kernels_apply (x1 : CoreIdx → EReal) (k : Fin 25) (b : Fin 4) (c : Fin 64) (h w : Fin 128) :
    shapeCast S4x25x64x128x128 x1 shapeCasts_S4x1600x128x128_S4x25x64x128x128 (ix5 b k c h w) = x1 (coreAt k b c h w) := by
  refine shapeCast_apply x1 _ (ix5 b k c h w) (coreAt k b c h w) ?_
  rw [Shape.rowMajor_val_four, Shape.rowMajor_val_five]
  show ((b.val * 1600 + (64 * k.val + c.val)) * 128 + h.val) * 128 + w.val
    = (((b.val * 25 + k.val) * 64 + c.val) * 128 + h.val) * 128 + w.val
  ring

/-- The reference's result is the convolution of the padded image with the kernels. -/
theorem result_eq (x0 : OutIdx → EReal) (x1 : CoreIdx → EReal) : result x0 x1 = conv (padded x0) x1 := by
  funext i
  obtain ⟨b, c, h, w, rfl⟩ : ∃ (b : Fin 4) (c : Fin 64) (h w : Fin 128), i = ix4 b c h w := ⟨i 0, i 1, i 2, i 3, eq_ix4 i⟩
  have hsum : ∀ (y0 : S4x25x64x128x128.Idx → EReal),
      Host.reduceAdd (F := Ideal) (φ := .f32) y0 (constant (F := Ideal) S_ .f32 0x00000000#32)
          reducesTo_S4x25x64x128x128_S4x64x128x128_d1 h_S_ (ix4 b c h w)
        = ∑ k : Fin 25, y0 (ix5 b k c h w) := by
    intro y0
    simp only [Host.reduceAdd, Ideal.hostReduceAdd_def]
    rw [Ideal.hostReduceAdd_single reducesTo_S4x25x64x128x128_S4x64x128x128_d1 (by decide)]
    rw [show constant (F := Ideal) S_ .f32 0x00000000#32 (Shape.Idx.first h_S_) = (0 : EReal) from Ideal.ofBits_zero_f32, zero_add]
    refine Finset.sum_congr rfl fun k _ => congrArg y0 (funext fun a => Fin.ext ?_)
    match a with
    | ⟨0, _⟩ => rfl
    | ⟨1, _⟩ => rfl
    | ⟨2, _⟩ => rfl
    | ⟨3, _⟩ => rfl
    | ⟨4, _⟩ => rfl
  unfold result
  rw [hsum, conv_apply]
  refine Finset.sum_congr rfl fun k _ => ?_
  rw [mulf_apply, kernels_apply, stack_apply]
  exact mul_comm _ _

end Cert.ReferenceIdeal.RefValue

end
-- ==== Proof.RefRun.lean ====
/-
  The reference's run: every execution ends with the result array at the stages' composed value of the arguments.

  The reference is a straight line of 60 host operations, each writing a buffer of its own from buffers written
  before it. What a buffer holds at the end is therefore its operation's function of what its operands held: the
  kernels reshaped; the image padded; the 25 shifted copies with their unit axis (two operations each); their joins
  (sixteen, nine, the two groups); the product; the zero; the sum. The first 54 operations (everything before the
  joins) are read one buffer at a time; the last six are then read over whatever the first 54 left.
-/
import proofs.«111455_j81312320848612_1_alg».proof.Proof.RefOps
import proofs.«111455_j81312320848612_1_alg».proof.Proof.RefValue
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.RefValue (padded copy first16 last9 stack result)

/-- Running one line of operations after another is running the two in turn. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations before the joins (the reshape, the padding, the 25 slices and their 25 unit axes), and the last six. -/
abbrev opsA : List (HloOp τ sig (Elt Ideal)) := (ops (F := Ideal)).take 54
abbrev opsB : List (HloOp τ sig (Elt Ideal)) := (ops (F := Ideal)).drop 54

theorem ops_split : ops (F := Ideal) = opsA ++ opsB := (List.take_append_drop 54 ops).symm

variable (V : Valuation τ sig (Elt Ideal))

/-! ## What the first 54 operations leave -/

/-- The kernels viewed as 25 × 64 channels. -/
theorem A_kernels : after opsA V (Proc.devRef .tc main_v0)
    = shapeCast S4x25x64x128x128 (V (Proc.devRef .tc main_arg1)) shapeCasts_S4x1600x128x128_S4x25x64x128x128 := by
  simp only [opsA, ops, List.take_succ_cons, List.take_zero]; after_results_simp; rfl

/-- Each shifted copy of the padded image, with its unit axis. -/
theorem A_copy0 : after opsA V (Proc.devRef .tc main_v27) = copy (padded (V (Proc.devRef .tc main_arg0))) 0 0 slices_S4x64x132x132_S4x64x128x128_0_0_0_0 := by
  simp only [opsA, ops, List.take_succ_cons, List.take_zero]; after_results_simp; rfl
theorem A_copy1 : after opsA V (Proc.devRef .tc main_v28) = copy (padded (V (Proc.devRef .tc main_arg0))) 0 1 slices_S4x64x132x132_S4x64x128x128_0_0_0_1 := by
  simp only [opsA, ops, List.take_succ_cons, List.take_zero]; after_results_simp; rfl
theorem A_copy2 : after opsA V (Proc.devRef .tc main_v29) = copy (padded (V (Proc.devRef .tc main_arg0))) 0 2 slices_S4x64x132x132_S4x64x128x128_0_0_0_2 := by
  simp only [opsA, ops, List.take_succ_cons, List.take_zero]; after_results_simp; rfl
theorem A_copy3 : after opsA V (Proc.devRef .tc main_v30) = copy (padded (V (Proc.devRef .tc main_arg0))) 0 3 slices_S4x64x132x132_S4x64x128x128_0_0_0_3 := by
  simp only [opsA, ops, List.take_succ_cons, List.take_zero]; after_results_simp; rfl
theorem A_copy4 : after opsA V (Proc.devRef .tc main_v31) = copy (padded (V (Proc.devRef .tc main_arg0))) 0 4 slices_S4x64x132x132_S4x64x128x128_0_0_0_4 := by
  simp only [opsA, ops, List.take_succ_cons, List.take_zero]; after_results_simp; rfl
theorem A_copy5 : after opsA V (Proc.devRef .tc main_v32) = copy (padded (V (Proc.devRef .tc main_arg0))) 1 0 slices_S4x64x132x132_S4x64x128x128_0_0_1_0 := by
  simp only [opsA, ops, List.take_succ_cons, List.take_zero]; after_results_simp; rfl
theorem A_copy6 : after opsA V (Proc.devRef .tc main_v33) = copy (padded (V (Proc.devRef .tc main_arg0))) 1 1 slices_S4x64x132x132_S4x64x128x128_0_0_1_1 := by
  simp only [opsA, ops, List.take_succ_cons, List.take_zero]; after_results_simp; rfl
theorem A_copy7 : after opsA V (Proc.devRef .tc main_v34) = copy (padded (V (Proc.devRef .tc main_arg0))) 1 2 slices_S4x64x132x132_S4x64x128x128_0_0_1_2 := by
  simp only [opsA, ops, List.take_succ_cons, List.take_zero]; after_results_simp; rfl
theorem A_copy8 : after opsA V (Proc.devRef .tc main_v35) = copy (padded (V (Proc.devRef .tc main_arg0))) 1 3 slices_S4x64x132x132_S4x64x128x128_0_0_1_3 := by
  simp only [opsA, ops, List.take_succ_cons, List.take_zero]; after_results_simp; rfl
theorem A_copy9 : after opsA V (Proc.devRef .tc main_v36) = copy (padded (V (Proc.devRef .tc main_arg0))) 1 4 slices_S4x64x132x132_S4x64x128x128_0_0_1_4 := by
  simp only [opsA, ops, List.take_succ_cons, List.take_zero]; after_results_simp; rfl
theorem A_copy10 : after opsA V (Proc.devRef .tc main_v37) = copy (padded (V (Proc.devRef .tc main_arg0))) 2 0 slices_S4x64x132x132_S4x64x128x128_0_0_2_0 := by
  simp only [opsA, ops, List.take_succ_cons, List.take_zero]; after_results_simp; rfl
theorem A_copy11 : after opsA V (Proc.devRef .tc main_v38) = copy (padded (V (Proc.devRef .tc main_arg0))) 2 1 slices_S4x64x132x132_S4x64x128x128_0_0_2_1 := by
  simp only [opsA, ops, List.take_succ_cons, List.take_zero]; after_results_simp; rfl
theorem A_copy12 : after opsA V (Proc.devRef .tc main_v39) = copy (padded (V (Proc.devRef .tc main_arg0))) 2 2 slices_S4x64x132x132_S4x64x128x128_0_0_2_2 := by
  simp only [opsA, ops, List.take_succ_cons, List.take_zero]; after_results_simp; rfl
theorem A_copy13 : after opsA V (Proc.devRef .tc main_v40) = copy (padded (V (Proc.devRef .tc main_arg0))) 2 3 slices_S4x64x132x132_S4x64x128x128_0_0_2_3 := by
  simp only [opsA, ops, List.take_succ_cons, List.take_zero]; after_results_simp; rfl
theorem A_copy14 : after opsA V (Proc.devRef .tc main_v41) = copy (padded (V (Proc.devRef .tc main_arg0))) 2 4 slices_S4x64x132x132_S4x64x128x128_0_0_2_4 := by
  simp only [opsA, ops, List.take_succ_cons, List.take_zero]; after_results_simp; rfl
theorem A_copy15 : after opsA V (Proc.devRef .tc main_v42) = copy (padded (V (Proc.devRef .tc main_arg0))) 3 0 slices_S4x64x132x132_S4x64x128x128_0_0_3_0 := by
  simp only [opsA, ops, List.take_succ_cons, List.take_zero]; after_results_simp; rfl
theorem A_copy16 : after opsA V (Proc.devRef .tc main_v43) = copy (padded (V (Proc.devRef .tc main_arg0))) 3 1 slices_S4x64x132x132_S4x64x128x128_0_0_3_1 := by
  simp only [opsA, ops, List.take_succ_cons, List.take_zero]; after_results_simp; rfl
theorem A_copy17 : after opsA V (Proc.devRef .tc main_v44) = copy (padded (V (Proc.devRef .tc main_arg0))) 3 2 slices_S4x64x132x132_S4x64x128x128_0_0_3_2 := by
  simp only [opsA, ops, List.take_succ_cons, List.take_zero]; after_results_simp; rfl
theorem A_copy18 : after opsA V (Proc.devRef .tc main_v45) = copy (padded (V (Proc.devRef .tc main_arg0))) 3 3 slices_S4x64x132x132_S4x64x128x128_0_0_3_3 := by
  simp only [opsA, ops, List.take_succ_cons, List.take_zero]; after_results_simp; rfl
theorem A_copy19 : after opsA V (Proc.devRef .tc main_v46) = copy (padded (V (Proc.devRef .tc main_arg0))) 3 4 slices_S4x64x132x132_S4x64x128x128_0_0_3_4 := by
  simp only [opsA, ops, List.take_succ_cons, List.take_zero]; after_results_simp; rfl
theorem A_copy20 : after opsA V (Proc.devRef .tc main_v47) = copy (padded (V (Proc.devRef .tc main_arg0))) 4 0 slices_S4x64x132x132_S4x64x128x128_0_0_4_0 := by
  simp only [opsA, ops, List.take_succ_cons, List.take_zero]; after_results_simp; rfl
theorem A_copy21 : after opsA V (Proc.devRef .tc main_v48) = copy (padded (V (Proc.devRef .tc main_arg0))) 4 1 slices_S4x64x132x132_S4x64x128x128_0_0_4_1 := by
  simp only [opsA, ops, List.take_succ_cons, List.take_zero]; after_results_simp; rfl
theorem A_copy22 : after opsA V (Proc.devRef .tc main_v49) = copy (padded (V (Proc.devRef .tc main_arg0))) 4 2 slices_S4x64x132x132_S4x64x128x128_0_0_4_2 := by
  simp only [opsA, ops, List.take_succ_cons, List.take_zero]; after_results_simp; rfl
theorem A_copy23 : after opsA V (Proc.devRef .tc main_v50) = copy (padded (V (Proc.devRef .tc main_arg0))) 4 3 slices_S4x64x132x132_S4x64x128x128_0_0_4_3 := by
  simp only [opsA, ops, List.take_succ_cons, List.take_zero]; after_results_simp; rfl
theorem A_copy24 : after opsA V (Proc.devRef .tc main_v51) = copy (padded (V (Proc.devRef .tc main_arg0))) 4 4 slices_S4x64x132x132_S4x64x128x128_0_0_4_4 := by
  simp only [opsA, ops, List.take_succ_cons, List.take_zero]; after_results_simp; rfl

/-! ## The last six operations over them -/

/-- The result buffer ends at the reference's composed value of the two arguments. -/
theorem result_after : after (ops (F := Ideal)) V (Proc.devRef .tc main_v56)
    = result (V (Proc.devRef .tc main_arg0)) (V (Proc.devRef .tc main_arg1)) := by
  rw [ops_split, after_append]
  simp only [opsB, ops, List.drop_succ_cons, List.drop_zero, after_cons, after_nil]
  -- the sum of the product; the zero; the product of the kernels' view and the stack; the stack of the two joins
  rw [binary_result (y := main_v56)]
  rw [nullary_result_ne (r := main_v55) (h := by decide), nullary_result (y := main_cst)]
  rw [binary_result (y := main_v55)]
  rw [binary_result_ne (r := main_v0) (h := by decide), nary_result_ne (r := main_v0) (h := by decide),
    nary_result_ne (r := main_v0) (h := by decide)]
  rw [binary_result (y := main_v54)]
  rw [nary_result_ne (r := main_v52) (h := by decide), nary_result (y := main_v52), nary_result (y := main_v53)]
  -- each join's operands, by position
  simp only [Matrix.cons_val]
  rw [nary_result_ne (r := main_v43) (h := by decide),
    nary_result_ne (r := main_v44) (h := by decide),
    nary_result_ne (r := main_v45) (h := by decide),
    nary_result_ne (r := main_v46) (h := by decide),
    nary_result_ne (r := main_v47) (h := by decide),
    nary_result_ne (r := main_v48) (h := by decide),
    nary_result_ne (r := main_v49) (h := by decide),
    nary_result_ne (r := main_v50) (h := by decide),
    nary_result_ne (r := main_v51) (h := by decide)]
  rw [A_kernels, A_copy0, A_copy1, A_copy2, A_copy3, A_copy4, A_copy5, A_copy6, A_copy7, A_copy8, A_copy9, A_copy10, A_copy11, A_copy12, A_copy13, A_copy14, A_copy15, A_copy16, A_copy17, A_copy18, A_copy19, A_copy20, A_copy21, A_copy22, A_copy23, A_copy24]
  rfl

/-! ## The arguments are never written -/

theorem kept_arg0 : after (ops (F := Ideal)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, reshape_writes, nary_writes, TRef.unary, TRef.binary,
      Finset.mem_singleton]
    repeat' apply And.intro
    all_goals exact devRef_ne_of_ne (by decide)))

theorem kept_arg1 : after (ops (F := Ideal)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, reshape_writes, nary_writes, TRef.unary, TRef.binary,
      Finset.mem_singleton]
    repeat' apply And.intro
    all_goals exact devRef_ne_of_ne (by decide)))

/-! ## The run -/

/-- On every device, from any memory with zero counters: every weakly fair execution of the reference terminates
    with the result array at the stages' composed value of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v56)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v56).trans (result_after _),
      (h c main_arg0).trans (kept_arg0 _),
      (h c main_arg1).trans (kept_arg1 _)⟩)
    (run_seq scopedRefs_eq scopedSems_eq defs main (fun _ => ops) main_eq (fun _ => ops_sub) m ρ)

end Cert.ReferenceIdeal.RefRun

end
-- ==== Proof.lean ====
/-
  The certificate of the per-pixel dynamic depthwise convolution kernel against its jnp reference.

  Both programs compute, at output position (b, c, h, w), the sum over the 25 taps k = 5·a + j of the zero-padded image
  at (b, c, h + a, w + j) times the per-pixel kernel entry at (b, 64·k + c, h, w) (Proof/Spec.lean). The kernel does it
  block by block — one grid point per image and tile of 16 output rows, a running total over the taps
  (Proof/Loads.lean, Proof/Payload.lean, Proof/Body.lean), the 32 output blocks tiling the result (Proof/Blocks.lean);
  the reference does it on whole arrays — 25 shifted copies joined into a stack, multiplied with the kernels viewed as
  25 × 64 channels, summed over the stack axis (Proof/RefValue.lean, over the reference's run, Proof/RefRun.lean). Both
  start from the same zero padding of the image, computed on the host by the same operations, so the padded image is
  never opened. The two sums have the same terms — a product's factors are swapped, and the kernel's total starts
  from a zero the reference's sum also starts from — and addition and multiplication of extended reals are
  commutative and associative without any finiteness condition: the precondition is not used.

  The three frames: the two kernels' are the generated frame certificates; the reference's is its run with the
  result dropped. The ideal pass rewrote nothing, so `preserves` is `True`.
-/
import proofs.«111455_j81312320848612_1_alg».proof.Defs
import proofs.«111455_j81312320848612_1_alg».proof.Proof.Gen.Kernel
import proofs.«111455_j81312320848612_1_alg».proof.Proof.Gen.Kernel.Frame
import proofs.«111455_j81312320848612_1_alg».proof.Proof.Gen.KernelIdeal
import proofs.«111455_j81312320848612_1_alg».proof.Proof.Gen.KernelIdeal.Frame
import proofs.«111455_j81312320848612_1_alg».proof.Proof.Gen.KernelIdeal.Value
import proofs.«111455_j81312320848612_1_alg».proof.Proof.Gen.ReferenceIdeal
import proofs.«111455_j81312320848612_1_alg».proof.Proof.Gen.Pre_finite_inputs
import proofs.«111455_j81312320848612_1_alg».proof.Proof.Blocks
import proofs.«111455_j81312320848612_1_alg».proof.Proof.RefValue
import proofs.«111455_j81312320848612_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation of the kernel. -/
theorem preserves : Cert.preserves_Kernel_KernelIdeal := trivial

/-- Both programs end with the convolution of the zero-padded image with the kernels: the kernel by its blocks
    (`Blocks.run`), the reference by its stack of shifted copies (`RefValue.result_eq`), from arguments that agree. -/
theorem algebraic : Cert.algebraic_KernelIdeal_ReferenceIdeal := by
  intro m ρ m' ρ' _ hagree
  refine ⟨fun c => Cert.Spec.conv
      (Cert.ReferenceIdeal.RefValue.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
